-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x500000 : Shape := ⟨2, ![2, 500000]⟩
abbrev S2x256x256 : Shape := ⟨3, ![2, 256, 256]⟩
abbrev S2x256 : Shape := ⟨2, ![2, 256]⟩
abbrev S128x256 : Shape := ⟨2, ![128, 256]⟩
abbrev S128 : Shape := ⟨1, ![128]⟩
abbrev S_ : Shape := ⟨0, ![]⟩
abbrev S1x500000 : Shape := ⟨2, ![1, 500000]⟩
abbrev S500000 : Shape := ⟨1, ![500000]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  reducesTo_S500000_S_d0 : S500000.ReducesTo [0] S_

variable [Facts]

def fn_part3 {F : FTy → Type} [FloatOps F] (main_arg1 : IVec S2x500000 32) (main_arg2 : IVec S2x500000 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : IVec S1x500000 32 := (extractStridedSlice S1x500000 ![0, 0] · slices_S2x500000_S1x500000_0_0) main_arg1
  let main_v55 : IVec S500000 32 := shapeCast S500000 main_v54 shapeCasts_S1x500000_S500000
  let main_c_20 : IVec S_ 32 := constantI S_ 32 0#32
  let main_v56 : IVec S500000 32 := broadcastInDim S500000 ![] bcast_S_S500000 main_c_20
  let main_v57 : IVec S500000 1 := cmpi .sge main_v55 main_v56
  let main_c_21 : IVec S_ 1 := constantI S_ 1 1#1
  let main_v58 : IVec S_ 1 := (fun x v => Host.reduce IntOp.andi x v reducesTo_S500000_S_d0 h_S_) main_v57 main_c_21
  let main_v59 : IVec S_ 1 := andi main_v53 main_v58
  let main_v60 : IVec S1x500000 32 := (extractStridedSlice S1x500000 ![0, 0] · slices_S2x500000_S1x500000_0_0) main_arg2
  let main_v61 : IVec S500000 32 := shapeCast S500000 main_v60 shapeCasts_S1x500000_S500000
  let main_c_22 : IVec S_ 32 := constantI S_ 32 0#32
  let main_v62 : IVec S500000 32 := broadcastInDim S500000 ![] bcast_S_S500000 main_c_22
  let main_v63 : IVec S500000 1 := cmpi .sge main_v61 main_v62
  let main_c_23 : IVec S_ 1 := constantI S_ 1 1#1
  let main_v64 : IVec S_ 1 := (fun x v => Host.reduce IntOp.andi x v reducesTo_S500000_S_d0 h_S_) main_v63 main_c_23
  let main_v65 : IVec S_ 1 := andi main_v59 main_v64
  main_v65

def fn_part2 {F : FTy → Type} [FloatOps F] (main_arg1 : IVec S2x500000 32) (main_arg2 : IVec S2x500000 32) (main_arg9 : FVec F S2x256 .f32) (main_arg10 : FVec F S2x256 .f32) (main_arg11 : FVec F S128x256 .f32) (main_arg12 : FVec F S128 .f32) (main_v33 : IVec S_ 1) : IVec S_ 1 :=
  let main_v34 : FVec F S2x256 .f32 := Host.absf main_arg9
  let main_cst_12 : FVec F S_ .f32 := constant S_ .f32 0x7F800000#32
  let main_v35 : FVec F S2x256 .f32 := broadcastInDim S2x256 ![] bcast_S_S2x256 main_cst_12
  let main_v36 : IVec S2x256 1 := cmpf .olt main_v34 main_v35
  let main_c_13 : IVec S_ 1 := constantI S_ 1 1#1
  let main_v37 : IVec S_ 1 := (fun x v => Host.reduce IntOp.andi x v reducesTo_S2x256_S_d0_1 h_S_) main_v36 main_c_13
  let main_v38 : IVec S_ 1 := andi main_v33 main_v37
  let main_v39 : FVec F S2x256 .f32 := Host.absf main_arg10
  let main_cst_14 : FVec F S_ .f32 := constant S_ .f32 0x7F800000#32
  let main_v40 : FVec F S2x256 .f32 := broadcastInDim S2x256 ![] bcast_S_S2x256 main_cst_14
  let main_v41 : IVec S2x256 1 := cmpf .olt main_v39 main_v40
  let main_c_15 : IVec S_ 1 := constantI S_ 1 1#1
  let main_v42 : IVec S_ 1 := (fun x v => Host.reduce IntOp.andi x v reducesTo_S2x256_S_d0_1 h_S_) main_v41 main_c_15
  let main_v43 : IVec S_ 1 := andi main_v38 main_v42
  let main_v44 : FVec F S128x256 .f32 := Host.absf main_arg11
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg1 main_arg2 main_v48 main_v49 main_v50

def fn_part1 {F : FTy → Type} [FloatOps F] (main_arg1 : IVec S2x500000 32) (main_arg2 : IVec S2x500000 32) (main_arg6 : FVec F S2x256 .f32) (main_arg7 : FVec F S2x256x256 .f32) (main_arg8 : FVec F S2x256 .f32) (main_arg9 : FVec F S2x256 .f32) (main_arg10 : FVec F S2x256 .f32) (main_arg11 : FVec F S128x256 .f32) (main_arg12 : FVec F S128 .f32) (main_v13 : IVec S_ 1) (main_v16 : IVec S2x256x256 1) : IVec S_ 1 :=
  let main_c_5 : IVec S_ 1 := constantI S_ 1 1#1
  let main_v17 : IVec S_ 1 := (fun x v => Host.reduce IntOp.andi x v reducesTo_S2x256x256_S_d0_1_2 h_S_) main_v16 main_c_5
  let main_v18 : IVec S_ 1 := andi main_v13 main_v17
  let main_v19 : FVec F S2x256 .f32 := Host.absf main_arg6
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  let main_v24 : FVec F S2x256x256 .f32 := Host.absf main_arg7
  let main_cst_8 : FVec F S_ .f32 := constant S_ .f32 0x7F800000#32
  let main_v25 : FVec F S2x256x256 .f32 := broadcastInDim S2x256x256 ![] bcast_S_S2x256x256 main_cst_8
  let main_v26 : IVec S2x256x256 1 := cmpf .olt main_v24 main_v25
  let main_c_9 : IVec S_ 1 := constantI S_ 1 1#1
  let main_v27 : IVec S_ 1 := (fun x v => Host.reduce IntOp.andi x v reducesTo_S2x256x256_S_d0_1_2 h_S_) main_v26 main_c_9
  let main_v28 : IVec S_ 1 := andi main_v23 main_v27
  let main_v29 : FVec F S2x256 .f32 := Host.absf main_arg8
  let main_cst_10 : FVec F S_ .f32 := constant S_ .f32 0x7F800000#32
  let main_v30 : FVec F S2x256 .f32 := broadcastInDim S2x256 ![] bcast_S_S2x256 main_cst_10
  let main_v31 : IVec S2x256 1 := cmpf .olt main_v29 main_v30
  let main_c_11 : IVec S_ 1 := constantI S_ 1 1#1
  let main_v32 : IVec S_ 1 := (fun x v => Host.reduce IntOp.andi x v reducesTo_S2x256_S_d0_1 h_S_) main_v31 main_c_11
  let main_v33 : IVec S_ 1 := andi main_v28 main_v32
  fn_part2 (F := F) main_arg1 main_arg2 main_arg9 main_arg10 main_arg11 main_arg12 main_v33

def fn {F : FTy → Type} [FloatOps F] (main_arg0 : FVec F S50000x256 .f32) (main_arg1 : IVec S2x500000 32) (main_arg2 : IVec S2x500000 32) (main_arg3 : FVec F S2x256x256 .f32) (main_arg4 : FVec F S2x256 .f32) (main_arg5 : FVec F S2x256x256 .f32) (main_arg6 : FVec F S2x256 .f32) (main_arg7 : FVec F S2x256x256 .f32) (main_arg8 : FVec F S2x256 .f32) (main_arg9 : FVec F S2x256 .f32) (main_arg10 : FVec F S2x256 .f32) (main_arg11 : FVec F S128x256 .f32) (main_arg12 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S2x256x256 .f32 := Host.absf main_arg3
  let main_cst_0 : FVec F S_ .f32 := constant S_ .f32 0x7F800000#32
  let main_v5 : FVec F S2x256x256 .f32 := broadcastInDim S2x256x256 ![] bcast_S_S2x256x256 main_cst_0
  let main_v6 : IVec S2x256x256 1 := cmpf .olt main_v4 main_v5
  let main_c_1 : IVec S_ 1 := constantI S_ 1 1#1
  let main_v7 : IVec S_ 1 := (fun x v => Host.reduce IntOp.andi x v reducesTo_S2x256x256_S_d0_1_2 h_S_) main_v6 main_c_1
  let main_v8 : IVec S_ 1 := andi main_v3 main_v7
  let main_v9 : FVec F S2x256 .f32 := Host.absf main_arg4
  let main_cst_2 : FVec F S_ .f32 := constant S_ .f32 0x7F800000#32
  let main_v10 : FVec F S2x256 .f32 := broadcastInDim S2x256 ![] bcast_S_S2x256 main_cst_2
  let main_v11 : IVec S2x256 1 := cmpf .olt main_v9 main_v10
  let main_c_3 : IVec S_ 1 := constantI S_ 1 1#1
  let main_v12 : IVec S_ 1 := (fun x v => Host.reduce IntOp.andi x v reducesTo_S2x256_S_d0_1 h_S_) main_v11 main_c_3
  let main_v13 : IVec S_ 1 := andi main_v8 main_v12
  let main_v14 : FVec F S2x256x256 .f32 := Host.absf main_arg5
  let main_cst_4 : FVec F S_ .f32 := constant S_ .f32 0x7F800000#32
  let main_v15 : FVec F S2x256x256 .f32 := broadcastInDim S2x256x256 ![] bcast_S_S2x256x256 main_cst_4
  let main_v16 : IVec S2x256x256 1 := cmpf .olt main_v14 main_v15
  fn_part1 (F := F) main_arg1 main_arg2 main_arg6 main_arg7 main_arg8 main_arg9 main_arg10 main_arg11 main_arg12 main_v13 main_v16
-- ==== Kernel.lean ====
abbrev S50000x256 : Shape := ⟨2, ![50000, 256]⟩
abbrev S2x500000 : Shape := ⟨2, ![2, 500000]⟩
abbrev S2x256x256 : Shape := ⟨3, ![2, 256, 256]⟩
abbrev S2x256 : Shape := ⟨2, ![2, 256]⟩
abbrev S128x256 : Shape := ⟨2, ![128, 256]⟩
abbrev S128 : Shape := ⟨1, ![128]⟩
abbrev S256x128 : Shape := ⟨2, ![256, 128]⟩
abbrev S2x1x256 : Shape := ⟨3, ![2, 1, 256]⟩
abbrev S1x128 : Shape := ⟨2, ![1, 128]⟩
abbrev S_ : Shape := ⟨0, ![]⟩
abbrev S1x500000 : Shape := ⟨2, ![1, 500000]⟩
abbrev S500000 : Shape := ⟨1, ![500000]⟩
abbrev S500000x1 : Shape := ⟨2, ![500000, 1]⟩
abbrev S500000x256 : Shape := ⟨2, ![500000, 256]⟩
abbrev S1x256x256 : Shape := ⟨3, ![1, 256, 256]⟩
abbrev S256x256 : Shape := ⟨2, ![256, 256]⟩
abbrev S1x1x256 : Shape := ⟨3, ![1, 1, 256]⟩
abbrev S1x256 : Shape := ⟨2, ![1, 256]⟩
abbrev S2000x256 : Shape := ⟨2, ![2000, 256]⟩
abbrev S2000 : Shape := ⟨1, ![2000]⟩
abbrev S2000x1 : Shape := ⟨2, ![2000, 1]⟩
abbrev S50000x128 : Shape := ⟨2, ![50000, 128]⟩
abbrev S2000x128 : Shape := ⟨2, ![2000, 128]⟩

abbrev nBuf : Space → Nat
  | .hbm => 102
  | .vmem => 28
  | .smem => 0
  | _ => 0

abbrev bufTy : (tb : Table) → Fin (tcTables nBuf tb) → BufTy
  | .hbm, ⟨0, _⟩ => ⟨S50000x256, .f32⟩
  | .hbm, ⟨1, _⟩ => ⟨S2x500000, .i32⟩
  | .hbm, ⟨2, _⟩ => ⟨S2x500000, .i32⟩
  | .hbm, ⟨3, _⟩ => ⟨S2x256x256, .f32⟩
  | .hbm, ⟨4, _⟩ => ⟨S2x256, .f32⟩
  | .hbm, ⟨5, _⟩ => ⟨S2x256x256, .f32⟩
  | .hbm, ⟨6, _⟩ => ⟨S2x256, .f32⟩
  | .hbm, ⟨7, _⟩ => ⟨S2x256x256, .f32⟩
  | .hbm, ⟨8, _⟩ => ⟨S2x256, .f32⟩
  | .hbm, ⟨9, _⟩ => ⟨S2x256, .f32⟩
  | .hbm, ⟨10, _⟩ => ⟨S2x256, .f32⟩
  | .hbm, ⟨11, _⟩ => ⟨S128x256, .f32⟩
  | .hbm, ⟨12, _⟩ => ⟨S128, .f32⟩
  | .hbm, ⟨13, _⟩ => ⟨S2x256x256, .f32⟩
  | .hbm, ⟨14, _⟩ => ⟨S2x256x256, .bf16⟩
  | .hbm, ⟨15, _⟩ => ⟨S2x256x256, .f32⟩
  | .hbm, ⟨16, _⟩ => ⟨S2x256x256, .bf16⟩
  | .hbm, ⟨17, _⟩ => ⟨S2x256x256, .f32⟩
  | .hbm, ⟨18, _⟩ => ⟨S2x256x256, .bf16⟩
  | .hbm, ⟨19, _⟩ => ⟨S256x128, .f32⟩
  | .hbm, ⟨20, _⟩ => ⟨S256x128, .bf16⟩
  | .hbm, ⟨21, _⟩ => ⟨S2x256, .f32⟩
  | .hbm, ⟨22, _⟩ => ⟨S2x256, .f32⟩
  | .hbm, ⟨23, _⟩ => ⟨S2x1x256, .f32⟩
  | .hbm, ⟨24, _⟩ => ⟨S2x1x256, .f32⟩
  | .hbm, ⟨25, _⟩ => ⟨S2x1x256, .f32⟩
  | .hbm, ⟨26, _⟩ => ⟨S1x128, .f32⟩
  | .hbm, ⟨27, _⟩ => ⟨S_, .f32⟩
  | .hbm, ⟨28, _⟩ => ⟨S50000x256, .f32⟩
  | .hbm, ⟨29, _⟩ => ⟨S1x500000, .i32⟩
  | .hbm, ⟨30, _⟩ => ⟨S500000, .i32⟩
  | .hbm, ⟨31, _⟩ => ⟨S1x500000, .i32⟩
  | .hbm, ⟨32, _⟩ => ⟨S500000, .i32⟩
  | .hbm, ⟨33, _⟩ => ⟨S_, .i32⟩
  | .hbm, ⟨34, _⟩ => ⟨S500000, .i32⟩
  | .hbm, ⟨35, _⟩ => ⟨S500000, .i1⟩
  | .hbm, ⟨36, _⟩ => ⟨S_, .i32⟩
  | .hbm, ⟨37, _⟩ => ⟨S500000, .i32⟩
  | .hbm, ⟨38, _⟩ => ⟨S500000, .i32⟩
  | .hbm, ⟨39, _⟩ => ⟨S500000, .i32⟩
  | .hbm, ⟨40, _⟩ => ⟨S500000x1, .i32⟩
  | .hbm, ⟨41, _⟩ => ⟨S500000x256, .f32⟩
  | .hbm, ⟨42, _⟩ => ⟨S_, .i32⟩
  | .hbm, ⟨43, _⟩ => ⟨S500000, .i32⟩
  | .hbm, ⟨44, _⟩ => ⟨S500000, .i1⟩
  | .hbm, ⟨45, _⟩ => ⟨S_, .i32⟩
  | .hbm, ⟨46, _⟩ => ⟨S500000, .i32⟩
  | .hbm, ⟨47, _⟩ => ⟨S500000, .i32⟩
  | .hbm, ⟨48, _⟩ => ⟨S500000, .i32⟩
  | .hbm, ⟨49, _⟩ => ⟨S500000x1, .i32⟩
  | .hbm, ⟨50, _⟩ => ⟨S50000x256, .f32⟩
  | .hbm, ⟨51, _⟩ => ⟨S1x256x256, .bf16⟩
  | .hbm, ⟨52, _⟩ => ⟨S256x256, .bf16⟩
  | .hbm, ⟨53, _⟩ => ⟨S1x256x256, .bf16⟩
  | .hbm, ⟨54, _⟩ => ⟨S256x256, .bf16⟩
  | .hbm, ⟨55, _⟩ => ⟨S1x256x256, .bf16⟩
  | .hbm, ⟨56, _⟩ => ⟨S256x256, .bf16⟩
  | .hbm, ⟨57, _⟩ => ⟨S1x1x256, .f32⟩
  | .hbm, ⟨58, _⟩ => ⟨S1x256, .f32⟩
  | .hbm, ⟨59, _⟩ => ⟨S1x1x256, .f32⟩
  | .hbm, ⟨60, _⟩ => ⟨S1x256, .f32⟩
  | .hbm, ⟨61, _⟩ => ⟨S1x1x256, .f32⟩
  | .hbm, ⟨62, _⟩ => ⟨S1x256, .f32⟩
  | .hbm, ⟨63, _⟩ => ⟨S50000x256, .bf16⟩
  | .hbm, ⟨64, _⟩ => ⟨S_, .f32⟩
  | .hbm, ⟨65, _⟩ => ⟨S50000x256, .f32⟩
  | .hbm, ⟨66, _⟩ => ⟨S1x500000, .i32⟩
  | .hbm, ⟨67, _⟩ => ⟨S500000, .i32⟩
  | .hbm, ⟨68, _⟩ => ⟨S1x500000, .i32⟩
  | .hbm, ⟨69, _⟩ => ⟨S500000, .i32⟩
  | .hbm, ⟨70, _⟩ => ⟨S_, .i32⟩
  | .hbm, ⟨71, _⟩ => ⟨S500000, .i32⟩
  | .hbm, ⟨72, _⟩ => ⟨S500000, .i1⟩
  | .hbm, ⟨73, _⟩ => ⟨S_, .i32⟩
  | .hbm, ⟨74, _⟩ => ⟨S500000, .i32⟩
  | .hbm, ⟨75, _⟩ => ⟨S500000, .i32⟩
  | .hbm, ⟨76, _⟩ => ⟨S500000, .i32⟩
  | .hbm, ⟨77, _⟩ => ⟨S500000x1, .i32⟩
  | .hbm, ⟨78, _⟩ => ⟨S500000x256, .bf16⟩
  | .hbm, ⟨79, _⟩ => ⟨S500000x256, .f32⟩
  | .hbm, ⟨80, _⟩ => ⟨S_, .i32⟩
  | .hbm, ⟨81, _⟩ => ⟨S500000, .i32⟩
  | .hbm, ⟨82, _⟩ => ⟨S500000, .i1⟩
  | .hbm, ⟨83, _⟩ => ⟨S_, .i32⟩
  | .hbm, ⟨84, _⟩ => ⟨S500000, .i32⟩
  | .hbm, ⟨85, _⟩ => ⟨S500000, .i32⟩
  | .hbm, ⟨86, _⟩ => ⟨S500000, .i32⟩
  | .hbm, ⟨87, _⟩ => ⟨S500000x1, .i32⟩
  | .hbm, ⟨88, _⟩ => ⟨S50000x256, .f32⟩
  | .hbm, ⟨89, _⟩ => ⟨S1x256x256, .bf16⟩
  | .hbm, ⟨90, _⟩ => ⟨S256x256, .bf16⟩
  | .hbm, ⟨91, _⟩ => ⟨S1x256x256, .bf16⟩
  | .hbm, ⟨92, _⟩ => ⟨S256x256, .bf16⟩
  | .hbm, ⟨93, _⟩ => ⟨S1x256x256, .bf16⟩
  | .hbm, ⟨94, _⟩ => ⟨S256x256, .bf16⟩
  | .hbm, ⟨95, _⟩ => ⟨S1x1x256, .f32⟩
  | .hbm, ⟨96, _⟩ => ⟨S1x256, .f32⟩
  | .hbm, ⟨97, _⟩ => ⟨S1x1x256, .f32⟩
  | .hbm, ⟨98, _⟩ => ⟨S1x256, .f32⟩
  | .hbm, ⟨99, _⟩ => ⟨S1x1x256, .f32⟩
  | .hbm, ⟨100, _⟩ => ⟨S1x256, .f32⟩
  | .hbm, ⟨101, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S2000x256, .bf16⟩
  | .local _ .vmem, ⟨11, _⟩ => ⟨S2000x256, .bf16⟩
  | .local _ .vmem, ⟨12, _⟩ => ⟨S2000x256, .f32⟩
  | .local _ .vmem, ⟨13, _⟩ => ⟨S2000x256, .f32⟩
  | .local _ .vmem, ⟨14, _⟩ => ⟨S2000x256, .bf16⟩
  | .local _ .vmem, ⟨15, _⟩ => ⟨S2000x256, .bf16⟩
  | .local _ .vmem, ⟨16, _⟩ => ⟨S2000x256, .f32⟩
  | .local _ .vmem, ⟨17, _⟩ => ⟨S2000x256, .f32⟩
  | .local _ .vmem, ⟨18, _⟩ => ⟨S256x256, .bf16⟩
  | .local _ .vmem, ⟨19, _⟩ => ⟨S256x256, .bf16⟩
  | .local _ .vmem, ⟨20, _⟩ => ⟨S256x256, .bf16⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S256x128, .bf16⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_1 : Ref sig .tc := ⟨.hbm, 42, rfl⟩
abbrev main_v26 : Ref sig .tc := ⟨.hbm, 43, rfl⟩
abbrev main_v27 : Ref sig .tc := ⟨.hbm, 44, rfl⟩
abbrev main_c_2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_3 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_4 : Ref sig .tc := ⟨.hbm, 70, rfl⟩
abbrev main_v51 : Ref sig .tc := ⟨.hbm, 71, rfl⟩
abbrev main_v52 : Ref sig .tc := ⟨.hbm, 72, rfl⟩
abbrev main_c_5 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_6 : Ref sig .tc := ⟨.hbm, 80, rfl⟩
abbrev main_v59 : Ref sig .tc := ⟨.hbm, 81, rfl⟩
abbrev main_v60 : Ref sig .tc := ⟨.hbm, 82, rfl⟩
abbrev main_c_7 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg11_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem11_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  transposes_S2x256x256_S2x256x256_0_2_1 : S2x256x256.Transposes [0, 2, 1] S2x256x256
  bitsLt_bf16_f32 : FTy.bits .bf16 < FTy.bits .f32
  transposes_S128x256_S256x128_1_0 : S128x256.Transposes [1, 0] S256x128
  shapeCasts_S2x256_S2x1x256 : S2x256.ShapeCasts S2x1x256
  shapeCasts_S128_S1x128 : S128.ShapeCasts S1x128
  bcast_S_S50000x256 : S_.BroadcastsInDim S50000x256 (![] : Fin 0 → Fin S50000x256.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  slices_S2x256x256_S1x256x256_1_0_0 : S2x256x256.Slices ![1, 0, 0] S1x256x256
  shapeCasts_S1x256x256_S256x256 : S1x256x256.ShapeCasts S256x256
  slices_S2x1x256_S1x1x256_1_0_0 : S2x1x256.Slices ![1, 0, 0] S1x1x256
  shapeCasts_S1x1x256_S1x256 : S1x1x256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  packedbf16_S2000x256_S2000x256_0_0 : (Rect.unit (s := S2000x256) ![0, 0] S2000x256.size inb_S2000x256_S2000x256_0_0).PackedRows (EltTy.packing .bf16)
  slices_S2x256x256_S1x256x256_0_0_0 : S2x256x256.Slices ![0, 0, 0] S1x256x256
  slices_S2x1x256_S1x1x256_0_0_0 : S2x1x256.Slices ![0, 0, 0] S1x1x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  gather_S50000x256_S500000x1_S500000x256_1_0_n_n_0_1_1256_wf : GatherDims.WF S50000x256 S500000x1 S500000x256 [1] [0] [] [0] [] 1 ![1, 256]
  scatter_S50000x256_S500000x1_S500000x256_1_0_0_1_wf : ScatterDims.WF S50000x256 S500000x1 S500000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x256.size a ≤ S50000x256.size a
  hwx0_8 : ∀ i : grid0.Coords, EltTy.bits .bf16 = 32 ∨ (Rect.block (s := S50000x256) S2000x256.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .bf16 = 32 ∨ (Rect.block (s := S50000x256) S2000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x128.size a ≤ S256x128.size a
  hwx1_9 : ∀ i : grid1.Coords, EltTy.bits .bf16 = 32 ∨ (Rect.block (s := S256x128) S256x128.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x128.size a ≤ S50000x128.size a
  hwx1_11 : ∀ i : grid1.Coords, EltTy.bits .f32 = 32 ∨ (Rect.block (s := S50000x128) S2000x128.size (cc1_transform_11 i) (hinb1_11 i)).WholeWords (EltTy.packing .f32)

variable [Facts₀]

def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v32) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v42) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v44) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v45) S2000x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v65) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v67) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v69) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v71) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v73) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v75) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v77) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v7) S256x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v13) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v78) S2000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x500000 : Shape := ⟨2, ![2, 500000]⟩
abbrev S2x256x256 : Shape := ⟨3, ![2, 256, 256]⟩
abbrev S2x256 : Shape := ⟨2, ![2, 256]⟩
abbrev S128x256 : Shape := ⟨2, ![128, 256]⟩
abbrev S128 : Shape := ⟨1, ![128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x256 : Shape := ⟨2, ![500000, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S50000 : Shape := ⟨1, ![50000]⟩
abbrev S50000x1 : Shape := ⟨2, ![50000, 1]⟩
abbrev S256x128 : Shape := ⟨2, ![256, 128]⟩
abbrev S50000x128 : Shape := ⟨2, ![50000, 128]⟩
abbrev S1x128 : Shape := ⟨2, ![1, 128]⟩

abbrev nBuf : Space → Nat
  | .hbm => 182
  | .vmem => 0
  | .smem => 0
  | _ => 0

abbrev hbmTy0_0 (i : Nat) : BufTy := match i % 128 with
  | 0 => ⟨S50000x256, .f32⟩
  | 1 => ⟨S2x500000, .i32⟩
  | 2 => ⟨S2x500000, .i32⟩
  | 3 => ⟨S2x256x256, .f32⟩
  | 4 => ⟨S2x256, .f32⟩
  | 5 => ⟨S2x256x256, .f32⟩
  | 6 => ⟨S2x256, .f32⟩
  | 7 => ⟨S2x256x256, .f32⟩
  | 8 => ⟨S2x256, .f32⟩
  | 9 => ⟨S2x256, .f32⟩
  | 10 => ⟨S2x256, .f32⟩
  | 11 => ⟨S128x256, .f32⟩
  | 12 => ⟨S128, .f32⟩
  | 13 => ⟨S1x500000, .i32⟩
  | 14 => ⟨S500000, .i32⟩
  | 15 => ⟨S_, .i32⟩
  | 16 => ⟨S500000, .i32⟩
  | 17 => ⟨S500000, .i1⟩
  | 18 => ⟨S_, .i32⟩
  | 19 => ⟨S500000, .i32⟩
  | 20 => ⟨S500000, .i32⟩
  | 21 => ⟨S500000, .i32⟩
  | 22 => ⟨S500000x1, .i32⟩
  | 23 => ⟨S500000x256, .f32⟩
  | 24 => ⟨S1x500000, .i32⟩
  | 25 => ⟨S500000, .i32⟩
  | 26 => ⟨S_, .f32⟩
  | 27 => ⟨S50000x256, .f32⟩
  | 28 => ⟨S500000x1, .i32⟩
  | 29 => ⟨S50000x256, .f32⟩
  | 30 => ⟨S1x256x256, .f32⟩
  | 31 => ⟨S256x256, .f32⟩
  | 32 => ⟨S256x256, .f32⟩
  | 33 => ⟨S50000x256, .f32⟩
  | 34 => ⟨S1x256, .f32⟩
  | 35 => ⟨S256, .f32⟩
  | 36 => ⟨S1x256, .f32⟩
  | 37 => ⟨S50000x256, .f32⟩
  | 38 => ⟨S50000x256, .f32⟩
  | 39 => ⟨S1x256x256, .f32⟩
  | 40 => ⟨S256x256, .f32⟩
  | 41 => ⟨S256x256, .f32⟩
  | 42 => ⟨S50000x256, .f32⟩
  | 43 => ⟨S50000x256, .f32⟩
  | 44 => ⟨S1x256, .f32⟩
  | 45 => ⟨S256, .f32⟩
  | 46 => ⟨S1x256, .f32⟩
  | 47 => ⟨S50000x256, .f32⟩
  | 48 => ⟨S50000x256, .f32⟩
  | 49 => ⟨S1x256x256, .f32⟩
  | 50 => ⟨S256x256, .f32⟩
  | 51 => ⟨S256x256, .f32⟩
  | 52 => ⟨S50000x256, .f32⟩
  | 53 => ⟨S50000x256, .f32⟩
  | 54 => ⟨S1x256, .f32⟩
  | 55 => ⟨S256, .f32⟩
  | 56 => ⟨S1x256, .f32⟩
  | 57 => ⟨S50000x256, .f32⟩
  | 58 => ⟨S50000x256, .f32⟩
  | 59 => ⟨S_, .f32⟩
  | 60 => ⟨S50000x256, .f32⟩
  | 61 => ⟨S50000x256, .f32⟩
  | 62 => ⟨S_, .f32⟩
  | 63 => ⟨S50000, .f32⟩
  | 64 => ⟨S50000x1, .f32⟩
  | 65 => ⟨S_, .f32⟩
  | 66 => ⟨S50000x1, .f32⟩
  | 67 => ⟨S50000x1, .f32⟩
  | 68 => ⟨S50000x256, .f32⟩
  | 69 => ⟨S50000x256, .f32⟩
  | 70 => ⟨S50000x256, .f32⟩
  | 71 => ⟨S_, .f32⟩
  | 72 => ⟨S50000, .f32⟩
  | 73 => ⟨S50000x1, .f32⟩
  | 74 => ⟨S_, .f32⟩
  | 75 => ⟨S50000x1, .f32⟩
  | 76 => ⟨S50000x1, .f32⟩
  | 77 => ⟨S50000x256, .f32⟩
  | 78 => ⟨S50000x256, .f32⟩
  | 79 => ⟨S_, .f32⟩
  | 80 => ⟨S50000x1, .f32⟩
  | 81 => ⟨S50000x1, .f32⟩
  | 82 => ⟨S50000x1, .f32⟩
  | 83 => ⟨S50000x256, .f32⟩
  | 84 => ⟨S50000x256, .f32⟩
  | 85 => ⟨S1x256, .f32⟩
  | 86 => ⟨S256, .f32⟩
  | 87 => ⟨S1x256, .f32⟩
  | 88 => ⟨S50000x256, .f32⟩
  | 89 => ⟨S50000x256, .f32⟩
  | 90 => ⟨S1x256, .f32⟩
  | 91 => ⟨S256, .f32⟩
  | 92 => ⟨S1x256, .f32⟩
  | 93 => ⟨S50000x256, .f32⟩
  | 94 => ⟨S50000x256, .f32⟩
  | 95 => ⟨S1x500000, .i32⟩
  | 96 => ⟨S500000, .i32⟩
  | 97 => ⟨S_, .i32⟩
  | 98 => ⟨S500000, .i32⟩
  | 99 => ⟨S500000, .i1⟩
  | 100 => ⟨S_, .i32⟩
  | 101 => ⟨S500000, .i32⟩
  | 102 => ⟨S500000, .i32⟩
  | 103 => ⟨S500000, .i32⟩
  | 104 => ⟨S500000x1, .i32⟩
  | 105 => ⟨S500000x256, .f32⟩
  | 106 => ⟨S1x500000, .i32⟩
  | 107 => ⟨S500000, .i32⟩
  | 108 => ⟨S_, .f32⟩
  | 109 => ⟨S50000x256, .f32⟩
  | 110 => ⟨S500000x1, .i32⟩
  | 111 => ⟨S50000x256, .f32⟩
  | 112 => ⟨S1x256x256, .f32⟩
  | 113 => ⟨S256x256, .f32⟩
  | 114 => ⟨S256x256, .f32⟩
  | 115 => ⟨S50000x256, .f32⟩
  | 116 => ⟨S1x256, .f32⟩
  | 117 => ⟨S256, .f32⟩
  | 118 => ⟨S1x256, .f32⟩
  | 119 => ⟨S50000x256, .f32⟩
  | 120 => ⟨S50000x256, .f32⟩
  | 121 => ⟨S1x256x256, .f32⟩
  | 122 => ⟨S256x256, .f32⟩
  | 123 => ⟨S256x256, .f32⟩
  | 124 => ⟨S50000x256, .f32⟩
  | 125 => ⟨S50000x256, .f32⟩
  | 126 => ⟨S1x256, .f32⟩
  | 127 => ⟨S256, .f32⟩
  | _ => ⟨S50000x256, .f32⟩

abbrev hbmTy0_1 (i : Nat) : BufTy := match i % 128 with
  | 0 => ⟨S1x256, .f32⟩
  | 1 => ⟨S50000x256, .f32⟩
  | 2 => ⟨S50000x256, .f32⟩
  | 3 => ⟨S1x256x256, .f32⟩
  | 4 => ⟨S256x256, .f32⟩
  | 5 => ⟨S256x256, .f32⟩
  | 6 => ⟨S50000x256, .f32⟩
  | 7 => ⟨S50000x256, .f32⟩
  | 8 => ⟨S1x256, .f32⟩
  | 9 => ⟨S256, .f32⟩
  | 10 => ⟨S1x256, .f32⟩
  | 11 => ⟨S50000x256, .f32⟩
  | 12 => ⟨S50000x256, .f32⟩
  | 13 => ⟨S_, .f32⟩
  | 14 => ⟨S50000x256, .f32⟩
  | 15 => ⟨S50000x256, .f32⟩
  | 16 => ⟨S_, .f32⟩
  | 17 => ⟨S50000, .f32⟩
  | 18 => ⟨S50000x1, .f32⟩
  | 19 => ⟨S_, .f32⟩
  | 20 => ⟨S50000x1, .f32⟩
  | 21 => ⟨S50000x1, .f32⟩
  | 22 => ⟨S50000x256, .f32⟩
  | 23 => ⟨S50000x256, .f32⟩
  | 24 => ⟨S50000x256, .f32⟩
  | 25 => ⟨S_, .f32⟩
  | 26 => ⟨S50000, .f32⟩
  | 27 => ⟨S50000x1, .f32⟩
  | 28 => ⟨S_, .f32⟩
  | 29 => ⟨S50000x1, .f32⟩
  | 30 => ⟨S50000x1, .f32⟩
  | 31 => ⟨S50000x256, .f32⟩
  | 32 => ⟨S50000x256, .f32⟩
  | 33 => ⟨S_, .f32⟩
  | 34 => ⟨S50000x1, .f32⟩
  | 35 => ⟨S50000x1, .f32⟩
  | 36 => ⟨S50000x1, .f32⟩
  | 37 => ⟨S50000x256, .f32⟩
  | 38 => ⟨S50000x256, .f32⟩
  | 39 => ⟨S1x256, .f32⟩
  | 40 => ⟨S256, .f32⟩
  | 41 => ⟨S1x256, .f32⟩
  | 42 => ⟨S50000x256, .f32⟩
  | 43 => ⟨S50000x256, .f32⟩
  | 44 => ⟨S1x256, .f32⟩
  | 45 => ⟨S256, .f32⟩
  | 46 => ⟨S1x256, .f32⟩
  | 47 => ⟨S50000x256, .f32⟩
  | 48 => ⟨S50000x256, .f32⟩
  | 49 => ⟨S256x128, .f32⟩
  | 50 => ⟨S50000x128, .f32⟩
  | 51 => ⟨S1x128, .f32⟩
  | 52 => ⟨S50000x128, .f32⟩
  | 53 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call0_cst : Ref sig .tc := ⟨.hbm, 59, rfl⟩
abbrev main_call0_v0 : Ref sig .tc := ⟨.hbm, 60, rfl⟩
abbrev main_v43 : Ref sig .tc := ⟨.hbm, 61, rfl⟩
abbrev main_cst_1 : Ref sig .tc := ⟨.hbm, 62, rfl⟩
abbrev main_v44 : Ref sig .tc := ⟨.hbm, 63, rfl⟩
abbrev main_v45 : Ref sig .tc := ⟨.hbm, 64, rfl⟩
abbrev main_cst_2 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_3 : Ref sig .tc := ⟨.hbm, 71, rfl⟩
abbrev main_v51 : Ref sig .tc := ⟨.hbm, 72, rfl⟩
abbrev main_v52 : Ref sig .tc := ⟨.hbm, 73, rfl⟩
abbrev main_cst_4 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_5 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_c_6 : Ref sig .tc := ⟨.hbm, 97, rfl⟩
abbrev main_v74 : Ref sig .tc := ⟨.hbm, 98, rfl⟩
abbrev main_v75 : Ref sig .tc := ⟨.hbm, 99, rfl⟩
abbrev main_c_7 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_8 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_call1_cst : Ref sig .tc := ⟨.hbm, 141, rfl⟩
abbrev main_call1_v0 : Ref sig .tc := ⟨.hbm, 142, rfl⟩
abbrev main_v115 : Ref sig .tc := ⟨.hbm, 143, rfl⟩
abbrev main_cst_9 : Ref sig .tc := ⟨.hbm, 144, rfl⟩
abbrev main_v116 : Ref sig .tc := ⟨.hbm, 145, rfl⟩
abbrev main_v117 : Ref sig .tc := ⟨.hbm, 146, rfl⟩
abbrev main_cst_10 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_cst_11 : Ref sig .tc := ⟨.hbm, 153, rfl⟩
abbrev main_v123 : Ref sig .tc := ⟨.hbm, 154, rfl⟩
abbrev main_v124 : Ref sig .tc := ⟨.hbm, 155, rfl⟩
abbrev main_cst_12 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_cst_13 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩

abbrev nD : Nat := 1
abbrev τ : Topo := Topo.v7x

variable {F : FTy → Type} [FloatOps F]

class Facts₀ : Prop where
  slices_S2x500000_S1x500000_1_0 : S2x500000.Slices ![1, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_0_0 : S2x500000.Slices ![0, 0] S1x500000
  bcast_S_S50000x256 : S_.BroadcastsInDim S50000x256 (![] : Fin 0 → Fin S50000x256.rank)
  slices_S2x256x256_S1x256x256_1_0_0 : S2x256x256.Slices ![1, 0, 0] S1x256x256
  shapeCasts_S1x256x256_S256x256 : S1x256x256.ShapeCasts S256x256
  transposes_S256x256_S256x256_1_0 : S256x256.Transposes [1, 0] S256x256
  slices_S2x256_S1x256_1_0 : S2x256.Slices ![1, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  slices_S2x256x256_S1x256x256_0_0_0 : S2x256x256.Slices ![0, 0, 0] S1x256x256
  slices_S2x256_S1x256_0_0 : S2x256.Slices ![0, 0] S1x256
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x256_S500000x1_S500000x256_1_0_n_n_0_1_1256_wf : GatherDims.WF S50000x256 S500000x1 S500000x256 [1] [0] [] [0] [] 1 ![1, 256]
  scatter_S50000x256_S500000x1_S500000x256_1_0_0_1_wf : ScatterDims.WF S50000x256 S500000x1 S500000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KRun.lean ====
/-
  The kernel program is two launches among stretches of host operations. Its run, read for the VALUE:
  from any memory with zero counters every weakly fair execution terminates, and on every core the
  result buffer ends at what the last boundary of the program holds there (the contents after the
  second launch's write-backs, as a fold from the launch memory through the host stretches and the
  two launches). What that fold is, index by index, is the business of the modules that follow.
-/
import proofs.«105233_j20830591386265_2_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and every
    argument array as launched. -/
theorem run_result : θ_run defs (onTc (τ := τ) (main (F := F))) ⟨m, fun _ => 0, ρ⟩ (fun r => ∀ c : Dev nD,
      r.2.mem ((c.tc : Thread nD τ).loc main_v78) = W4 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v78 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

/-- The result buffer is the array of the second launch's output window: it ends at what that launch's
    write-backs leave, a fold over the grid from the contents the launch finds. -/
theorem result_arr (c : Dev nD) :
    W4 m ρ c (Proc.devRef .tc main_v78) = (dat1 (V3 m ρ) c).arrAt 11 cfg1.N :=
  W4_arr m ρ c 11

end Cert.KernelIdeal.KValue

end
-- ==== Proof.LibLayout.lean ====
/-
  Two layout operations read at an index given by coordinates, for any sizes.
  * A rank-3 array cut along its LEADING axis from offset o: entry (j, b, e) of the cut is entry (o + j, b, e)
    of the source.
  * An [a, b] array reshaped to [a, 1, b]: entry (i, u, j) of the result is entry (i, j) of the source, since
    the unit axis contributes nothing to the row-major position.
-/
import Idealize.ShloMosaic.Lib.Pipeline.Value
import Idealize.ShloMosaic.Lib.ValueIdx
import Idealize.ShloMosaic.Lib.ValueLayout

namespace Idealize.ShloMosaic.ValueIdx

variable {α : Type}

/-- A rank-3 array cut along axis 0 from `o` reads, at `(j, b, e)`, the source at `(k, b, e)` with `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Idealize.ShloMosaic.ValueIdx
-- ==== Proof.KHost0.lean ====
/-
  What the first launch finds in the arrays it reads, after the host operations before it.
  * Its first operand is the neighbour aggregation of x along the second edge array: start from zeros and, for
    every edge, add row x[e[1]] into row e[0] (both indices with negative values wrapped round by the node count).
  * Its second operand is x itself.
  * The three weight operands are the layer-1 slices of the stacked weights, transposed: entry (k, j) is W[1, j, k]
    (the change of float format is the identity on extended reals).
  * The bias operand is the layer-1 row of bl + b0 + b1; the scale and shift operands the layer-1 rows of γ and β.
-/
import proofs.«105233_j20830591386265_2_alg».proof.Proof.Gen.KernelIdeal.Frame
import proofs.«105233_j20830591386265_2_alg».proof.Proof.LibLayout
import Idealize.ShloMosaic.PureOps.Ideal.Laws

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem Idealize.ShloMosaic.StableHlo

/-- Wrapping negative node indices round by the node count. -/
def wrap (idx : IVec S500000 32) : IVec S500000 32 :=
  select (cmpi .slt idx (broadcastInDim S500000 ![] bcast_S_S500000 (constantI S_ 32 0#32)))
    (addi idx (broadcastInDim S500000 ![] bcast_S_S500000 (constantI S_ 32 50000#32))) idx

/-- The neighbour aggregation of a feature array along an edge array, as this program's host operations write it. -/
def agg (src : FVec Ideal S50000x256 .f32) (e : IVec S2x500000 32) : FVec Ideal S50000x256 .f32 :=
  Host.scatterAdd scatter_S50000x256_S500000x1_S500000x256_1_0_0_1
    (broadcastInDim S50000x256 ![] bcast_S_S50000x256 (constant S_ .f32 0x00000000#32))
    (broadcastInDim S500000x1 ![0] bcast_S500000_S500000x1_0
      (wrap (shapeCast S500000 (extractStridedSlice S1x500000 ![0, 0] e slices_S2x500000_S1x500000_0_0) shapeCasts_S1x500000_S500000)))
    (Host.gather gather_S50000x256_S500000x1_S500000x256_1_0_n_n_0_1_1256 src
      (broadcastInDim S500000x1 ![0] bcast_S500000_S500000x1_0
        (wrap (shapeCast S500000 (extractStridedSlice S1x500000 ![1, 0] e slices_S2x500000_S1x500000_1_0) shapeCasts_S1x500000_S500000))))

variable (m : (ℓ : Loc nD τ sig) → Buf (Elt Ideal) ℓ) (ρ : Dev nD → PrngReg) (c : Dev nD)

/-! The thirteen argument arrays of core `c`, as launched, at their array types. -/
abbrev aX : FVec Ideal S50000x256 .f32 := m ((c.tc : Thread nD τ).loc main_arg0)
abbrev aE1 : IVec S2x500000 32 := m ((c.tc : Thread nD τ).loc main_arg1)
abbrev aE2 : IVec S2x500000 32 := m ((c.tc : Thread nD τ).loc main_arg2)
abbrev aWl : FVec Ideal S2x256x256 .f32 := m ((c.tc : Thread nD τ).loc main_arg3)
abbrev aBl : FVec Ideal S2x256 .f32 := m ((c.tc : Thread nD τ).loc main_arg4)
abbrev aW0 : FVec Ideal S2x256x256 .f32 := m ((c.tc : Thread nD τ).loc main_arg5)
abbrev aB0 : FVec Ideal S2x256 .f32 := m ((c.tc : Thread nD τ).loc main_arg6)
abbrev aW1 : FVec Ideal S2x256x256 .f32 := m ((c.tc : Thread nD τ).loc main_arg7)
abbrev aB1 : FVec Ideal S2x256 .f32 := m ((c.tc : Thread nD τ).loc main_arg8)
abbrev aG : FVec Ideal S2x256 .f32 := m ((c.tc : Thread nD τ).loc main_arg9)
abbrev aBe : FVec Ideal S2x256 .f32 := m ((c.tc : Thread nD τ).loc main_arg10)
abbrev aWo : FVec Ideal S128x256 .f32 := m ((c.tc : Thread nD τ).loc main_arg11)
abbrev aBo : FVec Ideal S128 .f32 := m ((c.tc : Thread nD τ).loc main_arg12)

theorem entry0_agg : V1 m ρ c main_v32 = agg (aX m c) (aE2 m c) := by
  show StableHlo.after hostOps0 (W0 m ρ c) (Proc.devRef .tc main_v32) = _
  simp only [hostOps0]
  after_results_simp <;> rfl

theorem entry0_x : V1 m ρ c main_arg0 = aX m c := by
  show StableHlo.after hostOps0 (W0 m ρ c) (Proc.devRef .tc main_arg0) = _
  simp only [hostOps0]
  after_results_simp <;> rfl

theorem entry0_wl (k j : Fin 256) :
    (V1 m ρ c main_v34 : S256x256.Idx → EReal) (ix2 k j) = aWl m c (ix3 1 j k) := by
  have e : (V1 m ρ c main_v34 : S256x256.Idx → EReal)
      = shapeCast S256x256 (extractStridedSlice S1x256x256 ![1, 0, 0]
          (truncf (F := Ideal) .bf16 (transpose S2x256x256 [0, 2, 1] (aWl m c) transposes_S2x256x256_S2x256x256_0_2_1) bitsLt_bf16_f32)
          slices_S2x256x256_S1x256x256_1_0_0) shapeCasts_S1x256x256_S256x256 := by
    show StableHlo.after hostOps0 (W0 m ρ c) (Proc.devRef .tc main_v34) = _
    simp only [hostOps0]
    after_results_simp <;> rfl
  rw [e, shapeCast_1ab_ab_apply, slice3_axis0_apply 1 _ _ 0 k j 1 rfl]
  exact transpose_ix3_021_apply _ _ 1 k j

theorem entry0_bias (j : Fin 256) :
    (V1 m ρ c main_v40 : S1x256.Idx → EReal) (ix2 0 j)
      = (aBl m c (ix2 1 j) + aB0 m c (ix2 1 j)) + aB1 m c (ix2 1 j) := by
  have e : (V1 m ρ c main_v40 : S1x256.Idx → EReal)
      = shapeCast S1x256 (extractStridedSlice S1x1x256 ![1, 0, 0]
          (shapeCast S2x1x256 (addf (F := Ideal) (addf (aBl m c) (aB0 m c)) (aB1 m c)) shapeCasts_S2x256_S2x1x256)
          slices_S2x1x256_S1x1x256_1_0_0) shapeCasts_S1x1x256_S1x256 := by
    show StableHlo.after hostOps0 (W0 m ρ c) (Proc.devRef .tc main_v40) = _
    simp only [hostOps0]
    after_results_simp <;> rfl
  rw [e, shapeCast_1ab_ab_apply, slice3_axis0_apply 1 _ _ 0 0 j 1 rfl, shapeCast_ab_a1b_apply]
  rfl

theorem entry0_gamma (j : Fin 256) :
    (V1 m ρ c main_v42 : S1x256.Idx → EReal) (ix2 0 j) = aG m c (ix2 1 j) := by
  have e : (V1 m ρ c main_v42 : S1x256.Idx → EReal)
      = shapeCast S1x256 (extractStridedSlice S1x1x256 ![1, 0, 0]
          (shapeCast S2x1x256 (aG m c) shapeCasts_S2x256_S2x1x256)
          slices_S2x1x256_S1x1x256_1_0_0) shapeCasts_S1x1x256_S1x256 := by
    show StableHlo.after hostOps0 (W0 m ρ c) (Proc.devRef .tc main_v42) = _
    simp only [hostOps0]
    after_results_simp <;> rfl
  rw [e, shapeCast_1ab_ab_apply, slice3_axis0_apply 1 _ _ 0 0 j 1 rfl, shapeCast_ab_a1b_apply]

theorem entry0_w0 (k j : Fin 256) :
    (V1 m ρ c main_v36 : S256x256.Idx → EReal) (ix2 k j) = aW0 m c (ix3 1 j k) := by
  have e : (V1 m ρ c main_v36 : S256x256.Idx → EReal)
      = shapeCast S256x256 (extractStridedSlice S1x256x256 ![1, 0, 0]
          (truncf (F := Ideal) .bf16 (transpose S2x256x256 [0, 2, 1] (aW0 m c) transposes_S2x256x256_S2x256x256_0_2_1) bitsLt_bf16_f32)
          slices_S2x256x256_S1x256x256_1_0_0) shapeCasts_S1x256x256_S256x256 := by
    show StableHlo.after hostOps0 (W0 m ρ c) (Proc.devRef .tc main_v36) = _
    simp only [hostOps0]
    after_results_simp <;> rfl
  rw [e, shapeCast_1ab_ab_apply, slice3_axis0_apply 1 _ _ 0 k j 1 rfl]
  exact transpose_ix3_021_apply _ _ 1 k j

theorem entry0_w1 (k j : Fin 256) :
    (V1 m ρ c main_v38 : S256x256.Idx → EReal) (ix2 k j) = aW1 m c (ix3 1 j k) := by
  have e : (V1 m ρ c main_v38 : S256x256.Idx → EReal)
      = shapeCast S256x256 (extractStridedSlice S1x256x256 ![1, 0, 0]
          (truncf (F := Ideal) .bf16 (transpose S2x256x256 [0, 2, 1] (aW1 m c) transposes_S2x256x256_S2x256x256_0_2_1) bitsLt_bf16_f32)
          slices_S2x256x256_S1x256x256_1_0_0) shapeCasts_S1x256x256_S256x256 := by
    show StableHlo.after hostOps0 (W0 m ρ c) (Proc.devRef .tc main_v38) = _
    simp only [hostOps0]
    after_results_simp <;> rfl
  rw [e, shapeCast_1ab_ab_apply, slice3_axis0_apply 1 _ _ 0 k j 1 rfl]
  exact transpose_ix3_021_apply _ _ 1 k j

theorem entry0_beta (j : Fin 256) :
    (V1 m ρ c main_v44 : S1x256.Idx → EReal) (ix2 0 j) = aBe m c (ix2 1 j) := by
  have e : (V1 m ρ c main_v44 : S1x256.Idx → EReal)
      = shapeCast S1x256 (extractStridedSlice S1x1x256 ![1, 0, 0]
          (shapeCast S2x1x256 (aBe m c) shapeCasts_S2x256_S2x1x256)
          slices_S2x1x256_S1x1x256_1_0_0) shapeCasts_S1x1x256_S1x256 := by
    show StableHlo.after hostOps0 (W0 m ρ c) (Proc.devRef .tc main_v44) = _
    simp only [hostOps0]
    after_results_simp <;> rfl
  rw [e, shapeCast_1ab_ab_apply, slice3_axis0_apply 1 _ _ 0 0 j 1 rfl, shapeCast_ab_a1b_apply]

/-! What the host operations before the first launch leave in the buffers the later host operations read. -/

theorem mid_wlT : (V1 m ρ c main_v1 : S2x256x256.Idx → EReal) = truncf (F := Ideal) .bf16 (transpose S2x256x256 [0, 2, 1] (aWl m c) transposes_S2x256x256_S2x256x256_0_2_1) bitsLt_bf16_f32 := by
  show StableHlo.after hostOps0 (W0 m ρ c) (Proc.devRef .tc main_v1) = _
  simp only [hostOps0]
  after_results_simp <;> rfl

theorem mid_w0T : (V1 m ρ c main_v3 : S2x256x256.Idx → EReal) = truncf (F := Ideal) .bf16 (transpose S2x256x256 [0, 2, 1] (aW0 m c) transposes_S2x256x256_S2x256x256_0_2_1) bitsLt_bf16_f32 := by
  show StableHlo.after hostOps0 (W0 m ρ c) (Proc.devRef .tc main_v3) = _
  simp only [hostOps0]
  after_results_simp <;> rfl

theorem mid_w1T : (V1 m ρ c main_v5 : S2x256x256.Idx → EReal) = truncf (F := Ideal) .bf16 (transpose S2x256x256 [0, 2, 1] (aW1 m c) transposes_S2x256x256_S2x256x256_0_2_1) bitsLt_bf16_f32 := by
  show StableHlo.after hostOps0 (W0 m ρ c) (Proc.devRef .tc main_v5) = _
  simp only [hostOps0]
  after_results_simp <;> rfl

theorem mid_woT : (V1 m ρ c main_v7 : S256x128.Idx → EReal) = truncf (F := Ideal) .bf16 (transpose S256x128 [1, 0] (aWo m c) transposes_S128x256_S256x128_1_0) bitsLt_bf16_f32 := by
  show StableHlo.after hostOps0 (W0 m ρ c) (Proc.devRef .tc main_v7) = _
  simp only [hostOps0]
  after_results_simp <;> rfl

theorem mid_bias : (V1 m ρ c main_v10 : S2x1x256.Idx → EReal) = shapeCast S2x1x256 (addf (F := Ideal) (addf (aBl m c) (aB0 m c)) (aB1 m c)) shapeCasts_S2x256_S2x1x256 := by
  show StableHlo.after hostOps0 (W0 m ρ c) (Proc.devRef .tc main_v10) = _
  simp only [hostOps0]
  after_results_simp <;> rfl

theorem mid_gamma : (V1 m ρ c main_v11 : S2x1x256.Idx → EReal) = shapeCast S2x1x256 (aG m c) shapeCasts_S2x256_S2x1x256 := by
  show StableHlo.after hostOps0 (W0 m ρ c) (Proc.devRef .tc main_v11) = _
  simp only [hostOps0]
  after_results_simp <;> rfl

theorem mid_beta : (V1 m ρ c main_v12 : S2x1x256.Idx → EReal) = shapeCast S2x1x256 (aBe m c) shapeCasts_S2x256_S2x1x256 := by
  show StableHlo.after hostOps0 (W0 m ρ c) (Proc.devRef .tc main_v12) = _
  simp only [hostOps0]
  after_results_simp <;> rfl

theorem mid_bout : (V1 m ρ c main_v13 : S1x128.Idx → EReal) = shapeCast S1x128 (aBo m c) shapeCasts_S128_S1x128 := by
  show StableHlo.after hostOps0 (W0 m ρ c) (Proc.devRef .tc main_v13) = _
  simp only [hostOps0]
  after_results_simp <;> rfl

theorem mid_e1 : (V1 m ρ c main_arg1 : IVec S2x500000 32) = aE1 m c := by
  show StableHlo.after hostOps0 (W0 m ρ c) (Proc.devRef .tc main_arg1) = _
  simp only [hostOps0]
  after_results_simp <;> rfl

end Cert.KernelIdeal.KValue

end
-- ==== Proof.KHost1.lean ====
/-
  What the second launch finds in the arrays it reads, after the first launch and the host operations between.
  * Its first operand is the neighbour aggregation, along the first edge array, of the first launch's output
    (gathered in the narrow float format and widened before the additions: on extended reals the widening is the identity).
  * Its second operand is the first launch's output, its third x.
  * The weights, bias, scale and shift are the layer-0 slices; the last two operands are the output matrix transposed,
    entry (k, o) being Wout[o, k], and the output bias as a row.
-/
import proofs.«105233_j20830591386265_2_alg».proof.Proof.KHost0

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem Idealize.ShloMosaic.StableHlo

/-- The neighbour aggregation of a narrow-format feature array along an edge array, widened before the sums. -/
def aggNarrow (src : FVec Ideal S50000x256 .bf16) (e : IVec S2x500000 32) : FVec Ideal S50000x256 .f32 :=
  Host.scatterAdd scatter_S50000x256_S500000x1_S500000x256_1_0_0_1
    (broadcastInDim S50000x256 ![] bcast_S_S50000x256 (constant S_ .f32 0x00000000#32))
    (broadcastInDim S500000x1 ![0] bcast_S500000_S500000x1_0
      (wrap (shapeCast S500000 (extractStridedSlice S1x500000 ![0, 0] e slices_S2x500000_S1x500000_0_0) shapeCasts_S1x500000_S500000)))
    (extf (F := Ideal) .f32 (Host.gather gather_S50000x256_S500000x1_S500000x256_1_0_n_n_0_1_1256 src
      (broadcastInDim S500000x1 ![0] bcast_S500000_S500000x1_0
        (wrap (shapeCast S500000 (extractStridedSlice S1x500000 ![1, 0] e slices_S2x500000_S1x500000_1_0) shapeCasts_S1x500000_S500000)))) bitsLt_bf16_f32)

variable (m : (ℓ : Loc nD τ sig) → Buf (Elt Ideal) ℓ) (ρ : Dev nD → PrngReg) (c : Dev nD)

/-- The first launch's output array, as it stands when the launch is over. -/
abbrev hidden : FVec Ideal S50000x256 .bf16 := W2 m ρ c (Proc.devRef .tc main_v45)

/-- A buffer that is not one of the first launch's arrays is, after the launch, what it was before. -/
theorem exit0_keep (b : Ref sig .tc) (hb : ∀ w, Pipeline.arrRef spec0 w ≠ b) :
    W2 m ρ c (Proc.devRef .tc b) = V1 m ρ c b := W2_of_ne m ρ c b hb

theorem entry1_agg : V3 m ρ c main_v65 = aggNarrow (hidden m ρ c) (aE1 m c) := by
  have e : V3 m ρ c main_v65 = aggNarrow (hidden m ρ c) (W2 m ρ c (Proc.devRef .tc main_arg1)) := by
    show StableHlo.after hostOps1 (W2 m ρ c) (Proc.devRef .tc main_v65) = _
    simp only [hostOps1]
    after_results_simp <;> rfl
  rw [e, exit0_keep m ρ c main_arg1 (by decide), mid_e1]

theorem entry1_h : V3 m ρ c main_v45 = hidden m ρ c := by
  show StableHlo.after hostOps1 (W2 m ρ c) (Proc.devRef .tc main_v45) = _
  simp only [hostOps1]
  after_results_simp <;> rfl

theorem entry1_x : V3 m ρ c main_arg0 = aX m c := by
  have e : V3 m ρ c main_arg0 = W2 m ρ c (Proc.devRef .tc main_arg0) := by
    show StableHlo.after hostOps1 (W2 m ρ c) (Proc.devRef .tc main_arg0) = _
    simp only [hostOps1]
    after_results_simp <;> rfl
  rw [e]
  exact ((W2_arr m ρ c 1).trans (((dat0 (V1 m ρ) c).arrAt_in 1 rfl _).trans (A_eq0 (V1 m ρ) c 1))).trans (entry0_x m ρ c)

theorem entry1_wl (k j : Fin 256) :
    (V3 m ρ c main_v67 : S256x256.Idx → EReal) (ix2 k j) = aWl m c (ix3 0 j k) := by
  have e : (V3 m ρ c main_v67 : S256x256.Idx → EReal)
      = shapeCast S256x256 (extractStridedSlice S1x256x256 ![0, 0, 0] (W2 m ρ c (Proc.devRef .tc main_v1))
          slices_S2x256x256_S1x256x256_0_0_0) shapeCasts_S1x256x256_S256x256 := by
    show StableHlo.after hostOps1 (W2 m ρ c) (Proc.devRef .tc main_v67) = _
    simp only [hostOps1]
    after_results_simp <;> rfl
  rw [e, exit0_keep m ρ c main_v1 (by decide), mid_wlT, shapeCast_1ab_ab_apply, slice3_axis0_apply 0 _ _ 0 k j 0 rfl]
  exact transpose_ix3_021_apply _ _ 0 k j

theorem entry1_w0 (k j : Fin 256) :
    (V3 m ρ c main_v69 : S256x256.Idx → EReal) (ix2 k j) = aW0 m c (ix3 0 j k) := by
  have e : (V3 m ρ c main_v69 : S256x256.Idx → EReal)
      = shapeCast S256x256 (extractStridedSlice S1x256x256 ![0, 0, 0] (W2 m ρ c (Proc.devRef .tc main_v3))
          slices_S2x256x256_S1x256x256_0_0_0) shapeCasts_S1x256x256_S256x256 := by
    show StableHlo.after hostOps1 (W2 m ρ c) (Proc.devRef .tc main_v69) = _
    simp only [hostOps1]
    after_results_simp <;> rfl
  rw [e, exit0_keep m ρ c main_v3 (by decide), mid_w0T, shapeCast_1ab_ab_apply, slice3_axis0_apply 0 _ _ 0 k j 0 rfl]
  exact transpose_ix3_021_apply _ _ 0 k j

theorem entry1_w1 (k j : Fin 256) :
    (V3 m ρ c main_v71 : S256x256.Idx → EReal) (ix2 k j) = aW1 m c (ix3 0 j k) := by
  have e : (V3 m ρ c main_v71 : S256x256.Idx → EReal)
      = shapeCast S256x256 (extractStridedSlice S1x256x256 ![0, 0, 0] (W2 m ρ c (Proc.devRef .tc main_v5))
          slices_S2x256x256_S1x256x256_0_0_0) shapeCasts_S1x256x256_S256x256 := by
    show StableHlo.after hostOps1 (W2 m ρ c) (Proc.devRef .tc main_v71) = _
    simp only [hostOps1]
    after_results_simp <;> rfl
  rw [e, exit0_keep m ρ c main_v5 (by decide), mid_w1T, shapeCast_1ab_ab_apply, slice3_axis0_apply 0 _ _ 0 k j 0 rfl]
  exact transpose_ix3_021_apply _ _ 0 k j

theorem entry1_bias (j : Fin 256) :
    (V3 m ρ c main_v73 : S1x256.Idx → EReal) (ix2 0 j) = (aBl m c (ix2 0 j) + aB0 m c (ix2 0 j)) + aB1 m c (ix2 0 j) := by
  have e : (V3 m ρ c main_v73 : S1x256.Idx → EReal)
      = shapeCast S1x256 (extractStridedSlice S1x1x256 ![0, 0, 0] (W2 m ρ c (Proc.devRef .tc main_v10))
          slices_S2x1x256_S1x1x256_0_0_0) shapeCasts_S1x1x256_S1x256 := by
    show StableHlo.after hostOps1 (W2 m ρ c) (Proc.devRef .tc main_v73) = _
    simp only [hostOps1]
    after_results_simp <;> rfl
  rw [e, exit0_keep m ρ c main_v10 (by decide), mid_bias, shapeCast_1ab_ab_apply, slice3_axis0_apply 0 _ _ 0 0 j 0 rfl, shapeCast_ab_a1b_apply]
  rfl

theorem entry1_gamma (j : Fin 256) :
    (V3 m ρ c main_v75 : S1x256.Idx → EReal) (ix2 0 j) = aG m c (ix2 0 j) := by
  have e : (V3 m ρ c main_v75 : S1x256.Idx → EReal)
      = shapeCast S1x256 (extractStridedSlice S1x1x256 ![0, 0, 0] (W2 m ρ c (Proc.devRef .tc main_v11))
          slices_S2x1x256_S1x1x256_0_0_0) shapeCasts_S1x1x256_S1x256 := by
    show StableHlo.after hostOps1 (W2 m ρ c) (Proc.devRef .tc main_v75) = _
    simp only [hostOps1]
    after_results_simp <;> rfl
  rw [e, exit0_keep m ρ c main_v11 (by decide), mid_gamma, shapeCast_1ab_ab_apply, slice3_axis0_apply 0 _ _ 0 0 j 0 rfl, shapeCast_ab_a1b_apply]

theorem entry1_beta (j : Fin 256) :
    (V3 m ρ c main_v77 : S1x256.Idx → EReal) (ix2 0 j) = aBe m c (ix2 0 j) := by
  have e : (V3 m ρ c main_v77 : S1x256.Idx → EReal)
      = shapeCast S1x256 (extractStridedSlice S1x1x256 ![0, 0, 0] (W2 m ρ c (Proc.devRef .tc main_v12))
          slices_S2x1x256_S1x1x256_0_0_0) shapeCasts_S1x1x256_S1x256 := by
    show StableHlo.after hostOps1 (W2 m ρ c) (Proc.devRef .tc main_v77) = _
    simp only [hostOps1]
    after_results_simp <;> rfl
  rw [e, exit0_keep m ρ c main_v12 (by decide), mid_beta, shapeCast_1ab_ab_apply, slice3_axis0_apply 0 _ _ 0 0 j 0 rfl, shapeCast_ab_a1b_apply]

theorem entry1_wout (k : Fin 256) (o : Fin 128) :
    (V3 m ρ c main_v7 : S256x128.Idx → EReal) (ix2 k o) = aWo m c (ix2 o k) := by
  have e : (V3 m ρ c main_v7 : S256x128.Idx → EReal) = W2 m ρ c (Proc.devRef .tc main_v7) := by
    show StableHlo.after hostOps1 (W2 m ρ c) (Proc.devRef .tc main_v7) = _
    simp only [hostOps1]
    after_results_simp <;> rfl
  rw [e, exit0_keep m ρ c main_v7 (by decide), mid_woT]
  exact transpose_ix2_apply _ _ k o

theorem entry1_bout (o : Fin 128) :
    (V3 m ρ c main_v13 : S1x128.Idx → EReal) (ix2 0 o) = aBo m c (ix1 o) := by
  have e : (V3 m ρ c main_v13 : S1x128.Idx → EReal) = W2 m ρ c (Proc.devRef .tc main_v13) := by
    show StableHlo.after hostOps1 (W2 m ρ c) (Proc.devRef .tc main_v13) = _
    simp only [hostOps1]
    after_results_simp <;> rfl
  rw [e, exit0_keep m ρ c main_v13 (by decide), mid_bout]
  exact shapeCast_a_1a_apply _ _ 0 o

end Cert.KernelIdeal.KValue

end
-- ==== Proof.Spec.lean ====
/-
  The function both programs compute, written once, index by index, over the extended reals.

  One layer of the network takes, for every node r, three feature rows of length 256 — the
  aggregated neighbours' row a, the layer's own input row h and the skip row x — and forms, for every
  output feature j,
      z j = Σ_k a k · Wl j k + Σ_k h k · W0 j k + Σ_k x k · W1 j k + (bl j + b0 j + b1 j),
  rectifies it (max with 0), and normalises the rectified row: subtract its mean, divide by the
  square root of its variance plus ε, scale by γ j and shift by β j. The last step of the network
  is an affine map of a normalised row into 128 features, Σ_k h k · Wout o k + bout o.
  Nothing here depends on how many rows are processed together: each definition speaks of one row.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.GnnSpec

/-- The three float words both programs carry (0, 256 and ε ≈ 1e-5), kept as words: the same word
    stands on both sides of every equation, so its value is never needed. -/
abbrev zeroW : EReal := Ideal.ofBits .f32 0x00000000#32
abbrev n256 : EReal := Ideal.ofBits .f32 0x43800000#32
abbrev epsW : EReal := Ideal.ofBits .f32 0x3727C5AC#32

/-- The pre-activation of output feature j: three inner products of length 256 and three biases. -/
def pre (a h x : Fin 256 → EReal) (wl w0 w1 : Fin 256 → Fin 256 → EReal) (bl b0 b1 : Fin 256 → EReal)
    (j : Fin 256) : EReal :=
  (((∑ k, a k * wl j k) + (∑ k, h k * w0 j k)) + (∑ k, x k * w1 j k)) + ((bl j + b0 j) + b1 j)

/-- Rectification. -/
def relu (z : EReal) : EReal := max z zeroW

/-- The mean of a row of 256. -/
def mean (f : Fin 256 → EReal) : EReal := Ideal.div (∑ j, f j) n256

/-- A row minus its mean. -/
def centered (f : Fin 256 → EReal) (j : Fin 256) : EReal := f j - mean f

/-- The normalised rectified row: (r j − μ) · (σ² + ε)^(-1/2) · γ j + β j, with r = relu ∘ z, μ its mean and σ² the
    mean of the squared deviations. -/
def normRow (z g b : Fin 256 → EReal) (j : Fin 256) : EReal :=
  (centered (fun j => relu (z j)) j
      * Ideal.rsqrt (mean (fun j => centered (fun j => relu (z j)) j * centered (fun j => relu (z j)) j) + epsW))
    * g j + b j

/-- Layer l at node r, feature j, from the three whole feature arrays and the stacked parameters. -/
def layerAt (A H X : FVec Ideal ⟨2, ![50000, 256]⟩ .f32) (Wl W0 W1 : FVec Ideal ⟨3, ![2, 256, 256]⟩ .f32)
    (bl b0 b1 g b : FVec Ideal ⟨2, ![2, 256]⟩ .f32) (l : Fin 2) (r : Fin 50000) (j : Fin 256) : EReal :=
  normRow
    (pre (fun k => A (ix2 r k)) (fun k => H (ix2 r k)) (fun k => X (ix2 r k))
      (fun j k => Wl (ix3 l j k)) (fun j k => W0 (ix3 l j k)) (fun j k => W1 (ix3 l j k))
      (fun j => bl (ix2 l j)) (fun j => b0 (ix2 l j)) (fun j => b1 (ix2 l j)))
    (fun j => g (ix2 l j)) (fun j => b (ix2 l j)) j

/-- Layer l as a whole array. -/
def layer (A H X : FVec Ideal ⟨2, ![50000, 256]⟩ .f32) (Wl W0 W1 : FVec Ideal ⟨3, ![2, 256, 256]⟩ .f32)
    (bl b0 b1 g b : FVec Ideal ⟨2, ![2, 256]⟩ .f32) (l : Fin 2) : FVec Ideal ⟨2, ![50000, 256]⟩ .f32 :=
  fun i => layerAt A H X Wl W0 W1 bl b0 b1 g b l (i 0) (i 1)

/-- The output map at node r, feature o. -/
def projAt (Hh : FVec Ideal ⟨2, ![50000, 256]⟩ .f32) (Wout : FVec Ideal ⟨2, ![128, 256]⟩ .f32)
    (bout : FVec Ideal ⟨1, ![128]⟩ .f32) (r : Fin 50000) (o : Fin 128) : EReal :=
  (∑ k : Fin 256, Hh (ix2 r k) * Wout (ix2 o k)) + bout (ix1 o)

/-- The output map as a whole array. -/
def proj (Hh : FVec Ideal ⟨2, ![50000, 256]⟩ .f32) (Wout : FVec Ideal ⟨2, ![128, 256]⟩ .f32)
    (bout : FVec Ideal ⟨1, ![128]⟩ .f32) : FVec Ideal ⟨2, ![50000, 128]⟩ .f32 :=
  fun i => projAt Hh Wout bout (i 0) (i 1)

/-- The biases of the two programs are added in different orders; on the extended reals addition
    is commutative and associative, so the orders agree. -/
theorem pre_arrange (A B C bl b0 b1 : EReal) :
    ((((A + bl) + B) + b0) + C) + b1 = ((A + B) + C) + ((bl + b0) + b1) := by
  abel

end Cert.GnnSpec

end
-- ==== Proof.KLayout.lean ====
/-
  The layout and contraction operations of the two layer bodies, each read at one index of its
  result: a row broadcast over the rows, a column broadcast over the lanes, a vector viewed as a
  column, the sum over the lanes of a row, and a product of a row block with a matrix, which is the
  sum over the 256 contracted positions of the products of the entries.
-/
import proofs.«105233_j20830591386265_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx

/-- The offsets of every access of the two bodies are zero. -/
theorem zeros2 : (![0, 0] : Fin 2 → Nat) = fun _ => 0 := by
  funext a
  match a with
  | ⟨0, _⟩ => rfl
  | ⟨1, _⟩ => rfl

/-- The reciprocal square root of a vector, at an index, is that of its entry. -/
theorem rsqrt_apply {s : Shape} {φ : FTy} (a : FVec Ideal s φ) (i : s.Idx) : rsqrt a i = Ideal.rsqrt (a i) := rfl

/-- One row of 256 broadcast over 2000 rows reads, at (p, q), its entry q. -/
theorem bcastRow_apply {α : Type} (v : S1x256.Idx → α) (p : Fin 2000) (q : Fin 256) :
    broadcastTo S2000x256 v broadcasts_S1x256_S2000x256 (ix2 p q) = v (ix2 (0 : Fin 1) q) :=
  broadcastTo_1b_ab_apply v broadcasts_S1x256_S2000x256 p q

/-- One row of 128 broadcast over 2000 rows reads, at (p, o), its entry o. -/
theorem bcastRow128_apply {α : Type} (v : S1x128.Idx → α) (p : Fin 2000) (o : Fin 128) :
    broadcastTo S2000x128 v broadcasts_S1x128_S2000x128 (ix2 p o) = v (ix2 (0 : Fin 1) o) :=
  broadcastTo_1b_ab_apply v broadcasts_S1x128_S2000x128 p o

/-- A column of 2000 broadcast over 256 lanes reads, at (p, q), the column's entry p. -/
theorem bcastCol_apply {α : Type} (c : S2000x1.Idx → α) (p : Fin 2000) (q : Fin 256) :
    broadcastTo S2000x256 c broadcasts_S2000x1_S2000x256 (ix2 p q) = c (ix2 p (0 : Fin 1)) := by
  refine broadcastTo_apply c broadcasts_S2000x1_S2000x256 (ix2 p q) (ix2 p (0 : Fin 1)) fun ax => ?_
  match ax with
  | ⟨0, _⟩ =>
    show p.val = if (2000 : ℕ) = 1 then 0 else p.val
    rw [if_neg (by decide)]
  | ⟨1, _⟩ => rfl

/-- A vector of 2000 viewed as a column reads, at (p, u), the vector's entry p. -/
theorem castCol_apply {α : Type} (v : S2000.Idx → α) (p : Fin 2000) (u : Fin 1) :
    shapeCast S2000x1 v shapeCasts_S2000_S2000x1 (ix2 p u) = v (ix1 p) :=
  shapeCast_apply v shapeCasts_S2000_S2000x1 _ _ (by
    have hu : u.val = 0 := by omega
    rw [Shape.rowMajor_val_two, Shape.rowMajor_val_one]
    show p.val = p.val * 1 + u.val
    rw [hu, Nat.mul_one, Nat.add_zero])

/-- The sum over the lanes of row p is the sum of the row's 256 entries, whatever the evidence that the
    accumulator is the zero word. -/
theorem laneSum_apply (src : FVec Ideal S2000x256 .f32) (hφ : FKind.Formats .f32)
    (hacc : (0x00000000#32 : BitVec 32) = 0x00000000#32) (p : Fin 2000) :
    multiReduction (F := Ideal) .add [1] S2000 src 0x00000000#32 reduces_S2000x256_S2000 hφ hacc (ix1 p)
      = ∑ k : Fin 256, src (ix2 p k) := by
  refine (Ideal.multiReduction_add_single src 0x00000000#32 reduces_S2000x256_S2000 hφ hacc (ix1 p)).trans ?_
  show ∑ k : Fin 256, src (reduces_S2000x256_S2000.lift (ix1 p) k) = _
  refine Finset.sum_congr rfl fun k _ => congrArg src ?_
  funext c
  apply Fin.ext
  match c with
  | ⟨0, _⟩ => rfl
  | ⟨1, _⟩ => rfl

/-- The left operand's row coordinate under the contraction is the output's row. -/
theorem lhs0_256 (i : S2000x256.Idx) (c : dot_S2000x256_S256x256_S2000x256_1_0_0_1_n_n.contr.Idx) :
    (dot_S2000x256_S256x256_S2000x256_1_0_0_1_n_n.lhsIdx i c 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

/-- The right operand's column coordinate under the contraction is the output's column. -/
theorem rhs1_256 (i : S2000x256.Idx) (c : dot_S2000x256_S256x256_S2000x256_1_0_0_1_n_n.contr.Idx) :
    (dot_S2000x256_S256x256_S2000x256_1_0_0_1_n_n.rhsIdx i c 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- A block of 2000 rows of 256 times a 256 × 256 matrix, accumulated from zero: at (p, q) the sum over the
    contracted position k of the row's entry k times the matrix's entry (k, q). -/
theorem matmul256_apply (l : FVec Ideal S2000x256 .bf16) (r : FVec Ideal S256x256 .bf16) (p : Fin 2000) (q : Fin 256) :
    matmul dot_S2000x256_S256x256_S2000x256_1_0_0_1_n_n none l r (constant (F := Ideal) S2000x256 .f32 0x00000000#32) (ix2 p q)
      = ∑ k : Fin 256, l (ix2 p k) * r (ix2 k q) := by
  show FloatOps.matmul dot_S2000x256_S256x256_S2000x256_1_0_0_1_n_n none l r (constant (F := Ideal) S2000x256 .f32 0x00000000#32) (ix2 p q) = _
  rw [Ideal.matmul_constant_zero_apply,
    ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q)
      ((contrEquiv1 dot_S2000x256_S256x256_S2000x256_1_0_0_1_n_n 256 rfl rfl).symm k) = ix2 p k :=
    funext fun a => Fin.ext (by
      match a with
      | ⟨0, _⟩ => exact lhs0_256 _ _
      | ⟨1, _⟩ => exact (dot_S2000x256_S256x256_S2000x256_1_0_0_1_n_n.lhsIdx_val_of_single rfl _ _).trans hk)
  have er : dot_S2000x256_S256x256_S2000x256_1_0_0_1_n_n.rhsIdx (ix2 p q)
      ((contrEquiv1 dot_S2000x256_S256x256_S2000x256_1_0_0_1_n_n 256 rfl rfl).symm k) = ix2 k q :=
    funext fun a => Fin.ext (by
      match a with
      | ⟨0, _⟩ => exact (dot_S2000x256_S256x256_S2000x256_1_0_0_1_n_n.rhsIdx_val_of_single rfl _ _).trans hk
      | ⟨1, _⟩ => exact rhs1_256 _ _)
  rw [el, er]

/-- The left operand's row coordinate under the contraction is the output's row. -/
theorem lhs0_128 (i : S2000x128.Idx) (c : dot_S2000x256_S256x128_S2000x128_1_0_0_1_n_n.contr.Idx) :
    (dot_S2000x256_S256x128_S2000x128_1_0_0_1_n_n.lhsIdx i c 0).val = (i 0).val := by
  unfold DotDims.lhsIdx
  rw [dif_neg (show ¬(0 : Fin S2000x256.rank) ∈ dot_S2000x256_S256x128_S2000x128_1_0_0_1_n_n.lhsBatch by decide),
    dif_pos (show (0 : Fin S2000x256.rank) ∈ dot_S2000x256_S256x128_S2000x128_1_0_0_1_n_n.lhsNonContracting by decide)]
  rfl

/-- The right operand's column coordinate under the contraction is the output's column. -/
theorem rhs1_128 (i : S2000x128.Idx) (c : dot_S2000x256_S256x128_S2000x128_1_0_0_1_n_n.contr.Idx) :
    (dot_S2000x256_S256x128_S2000x128_1_0_0_1_n_n.rhsIdx i c 1).val = (i 1).val := by
  unfold DotDims.rhsIdx
  rw [dif_neg (show ¬(1 : Fin S256x128.rank) ∈ dot_S2000x256_S256x128_S2000x128_1_0_0_1_n_n.rhsBatch by decide),
    dif_pos (show (1 : Fin S256x128.rank) ∈ dot_S2000x256_S256x128_S2000x128_1_0_0_1_n_n.rhsNonContracting by decide)]
  rfl

/-- A block of 2000 rows of 256 times a 256 × 128 matrix, accumulated from zero: at (p, o) the sum over the
    contracted position k of the row's entry k times the matrix's entry (k, o). -/
theorem matmul128_apply (l : FVec Ideal S2000x256 .bf16) (r : FVec Ideal S256x128 .bf16) (p : Fin 2000) (o : Fin 128) :
    matmul dot_S2000x256_S256x128_S2000x128_1_0_0_1_n_n none l r (constant (F := Ideal) S2000x128 .f32 0x00000000#32) (ix2 p o)
      = ∑ k : Fin 256, l (ix2 p k) * r (ix2 k o) := by
  show FloatOps.matmul dot_S2000x256_S256x128_S2000x128_1_0_0_1_n_n none l r (constant (F := Ideal) S2000x128 .f32 0x00000000#32) (ix2 p o) = _
  rw [Ideal.matmul_constant_zero_apply,
    ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p o)
      ((contrEquiv1 dot_S2000x256_S256x128_S2000x128_1_0_0_1_n_n 256 rfl rfl).symm k) = ix2 p k :=
    funext fun a => Fin.ext (by
      match a with
      | ⟨0, _⟩ => exact lhs0_128 _ _
      | ⟨1, _⟩ => exact (dot_S2000x256_S256x128_S2000x128_1_0_0_1_n_n.lhsIdx_val_of_single rfl _ _).trans hk)
  have er : dot_S2000x256_S256x128_S2000x128_1_0_0_1_n_n.rhsIdx (ix2 p o)
      ((contrEquiv1 dot_S2000x256_S256x128_S2000x128_1_0_0_1_n_n 256 rfl rfl).symm k) = ix2 k o :=
    funext fun a => Fin.ext (by
      match a with
      | ⟨0, _⟩ => exact (dot_S2000x256_S256x128_S2000x128_1_0_0_1_n_n.rhsIdx_val_of_single rfl _ _).trans hk
      | ⟨1, _⟩ => exact rhs1_128 _ _)
  rw [el, er]

end Cert.KernelIdeal.BodyValue

end
-- ==== Proof.KBody1.lean ====
/-
  The second layer's body read at an index. Its output block holds, at row p and output feature o,
  the inner product of the row's normalised rectified features with column o of the output matrix,
  plus the output bias: the same normalisation as the first layer's, of the three products of the
  row's inputs with the weight matrices plus the bias row, followed by one more product with a matrix.
-/
import proofs.«105233_j20830591386265_2_alg».proof.Proof.Gen.KernelIdeal.Frame
import proofs.«105233_j20830591386265_2_alg».proof.Proof.Spec
import proofs.«105233_j20830591386265_2_alg».proof.Proof.KLayout

noncomputable section

namespace Cert.KernelIdeal.BodyValue

open Cert.KernelIdeal Cert.KernelIdeal.Gen Idealize.ShloMosaic Idealize.ShloMosaic.ValueIdx

/-- The arithmetic of the second layer's body at row p, output feature o: the pre-activation z j is the sum of the
    three inner products of length 256 and the bias; its normalised rectified row, scaled by the row x7 and shifted by
    the row x8, is multiplied with the 256 × 128 matrix x9 and the row x10 is added. -/
theorem pay1_apply (x0 : Vec Ideal S2000x256 .f32) (x1 : Vec Ideal S2000x256 .bf16) (x2 : Vec Ideal S2000x256 .f32)
    (x3 x4 x5 : Vec Ideal S256x256 .bf16) (x6 x7 x8 : Vec Ideal S1x256 .f32) (x9 : Vec Ideal S256x128 .bf16)
    (x10 : Vec Ideal S1x128 .f32) (p : Fin 2000) (o : Fin 128) :
    k1_pay1 (F := Ideal) (k1_pay2 x0 x1 x2 x3 x4 x5 x6) (k1_pay3 x0 x1 x2 x3 x4 x5 x6) (k1_pay4 (F := Ideal)) x7 x8 x9 x10 (ix2 p o)
      = (∑ k : Fin 256, Cert.GnnSpec.normRow
          (fun j => (((∑ k' : Fin 256, x0 (ix2 p k') * x3 (ix2 k' j)) + (∑ k' : Fin 256, x1 (ix2 p k') * x4 (ix2 k' j)))
            + (∑ k' : Fin 256, x2 (ix2 p k') * x5 (ix2 k' j))) + x6 (ix2 0 j))
          (fun j => x7 (ix2 0 j)) (fun j => x8 (ix2 0 j)) k * x9 (ix2 k o)) + x10 (ix2 0 o) := by
  unfold k1_pay1 k1_pay3 k1_pay2 k1_pay4
  simp -index only [truncf_apply, addf_apply, mulf_apply, subf_apply, maximumf_apply, divf_apply, rsqrt_apply, broadcast_apply,
    bcastRow_apply, bcastRow128_apply, bcastCol_apply, castCol_apply, laneSum_apply, matmul256_apply, matmul128_apply,
    shapeCast_self, Ideal.ofBits_def, GnnSpec.normRow, GnnSpec.centered, GnnSpec.mean, GnnSpec.relu]

/-- What the second layer's body leaves in its output block, at row p and output feature o. -/
theorem out1_11_apply (x0 : Vec Ideal S2000x256 .f32) (x1 : Vec Ideal S2000x256 .bf16) (x2 : Vec Ideal S2000x256 .f32)
    (x3 x4 x5 : Vec Ideal S256x256 .bf16) (x6 x7 x8 : Vec Ideal S1x256 .f32) (x9 : Vec Ideal S256x128 .bf16)
    (x10 : Vec Ideal S1x128 .f32) (p : Fin 2000) (o : Fin 128) :
    out1_11 (F := Ideal) x0 x1 x2 x3 x4 x5 x6 x7 x8 x9 x10 (ix2 p o)
      = (∑ k : Fin 256, Cert.GnnSpec.normRow
          (fun j => (((∑ k' : Fin 256, x0 (ix2 p k') * x3 (ix2 k' j)) + (∑ k' : Fin 256, x1 (ix2 p k') * x4 (ix2 k' j)))
            + (∑ k' : Fin 256, x2 (ix2 p k') * x5 (ix2 k' j))) + x6 (ix2 0 j))
          (fun j => x7 (ix2 0 j)) (fun j => x8 (ix2 0 j)) k * x9 (ix2 k o)) + x10 (ix2 0 o) := by
  unfold out1_11
  rw [View.canon_unit_zero (S := S2000x128) zeros2]
  simp only [View.ld_unit_zero (S := S2000x256) zeros2, View.ld_unit_zero (S := S256x256) zeros2,
    View.ld_unit_zero (S := S1x256) zeros2, View.ld_unit_zero (S := S256x128) zeros2, View.ld_unit_zero (S := S1x128) zeros2]
  exact pay1_apply x0 x1 x2 x3 x4 x5 x6 x7 x8 x9 x10 p o

end Cert.KernelIdeal.BodyValue

end
-- ==== Proof.KBody0.lean ====
/-
  The first layer's body read at an index. Its output block holds, at row p and feature q, the
  normalised rectified row of the three products of the row's inputs with the weight matrices plus
  the bias row, scaled and shifted: every operation of the body is pointwise, a broadcast, a sum over
  the lanes, or a product with a matrix, so the body's one term reads at (p, q) as a closed formula
  in the entries of its input blocks, and that formula is the specification's normalised row.
-/
import proofs.«105233_j20830591386265_2_alg».proof.Proof.Gen.KernelIdeal.Frame
import proofs.«105233_j20830591386265_2_alg».proof.Proof.Spec
import proofs.«105233_j20830591386265_2_alg».proof.Proof.KLayout

noncomputable section

namespace Cert.KernelIdeal.BodyValue

open Cert.KernelIdeal Cert.KernelIdeal.Gen Idealize.ShloMosaic Idealize.ShloMosaic.ValueIdx

/-- The arithmetic of the first layer's body at row p, feature q: the pre-activation z j is the sum of the three
    inner products of length 256 and the bias; the result is the normalised rectified row of z, scaled by the row
    x6 and shifted by the row x7. -/
theorem pay0_apply (x0 x1 : Vec Ideal S2000x256 .f32) (x2 x3 x4 : Vec Ideal S256x256 .bf16) (x5 x6 x7 : Vec Ideal S1x256 .f32)
    (p : Fin 2000) (q : Fin 256) :
    k0_pay1 (F := Ideal) (k0_pay2 x0 x1 x2 x3 x4 x5) x6 x7 (ix2 p q)
      = Cert.GnnSpec.normRow
          (fun j => (((∑ k : Fin 256, x0 (ix2 p k) * x2 (ix2 k j)) + (∑ k : Fin 256, x1 (ix2 p k) * x3 (ix2 k j)))
            + (∑ k : Fin 256, x1 (ix2 p k) * x4 (ix2 k j))) + x5 (ix2 0 j))
          (fun j => x6 (ix2 0 j)) (fun j => x7 (ix2 0 j)) q := by
  unfold k0_pay1 k0_pay2
  simp -index only [truncf_apply, addf_apply, mulf_apply, subf_apply, maximumf_apply, divf_apply, rsqrt_apply, broadcast_apply,
    bcastRow_apply, bcastCol_apply, castCol_apply, laneSum_apply, matmul256_apply, shapeCast_self, Ideal.ofBits_def,
    GnnSpec.normRow, GnnSpec.centered, GnnSpec.mean, GnnSpec.relu]

/-- What the first layer's body leaves in its output block, at row p and feature q. -/
theorem out0_8_apply (x0 x1 : Vec Ideal S2000x256 .f32) (x2 x3 x4 : Vec Ideal S256x256 .bf16) (x5 x6 x7 : Vec Ideal S1x256 .f32)
    (p : Fin 2000) (q : Fin 256) :
    out0_8 (F := Ideal) x0 x1 x2 x3 x4 x5 x6 x7 (ix2 p q)
      = Cert.GnnSpec.normRow
          (fun j => (((∑ k : Fin 256, x0 (ix2 p k) * x2 (ix2 k j)) + (∑ k : Fin 256, x1 (ix2 p k) * x3 (ix2 k j)))
            + (∑ k : Fin 256, x1 (ix2 p k) * x4 (ix2 k j))) + x5 (ix2 0 j))
          (fun j => x6 (ix2 0 j)) (fun j => x7 (ix2 0 j)) q := by
  unfold out0_8
  rw [View.canon_unit_zero (S := S2000x256) zeros2]
  simp only [View.ld_unit_zero (S := S2000x256) zeros2, View.ld_unit_zero (S := S256x256) zeros2,
    View.ld_unit_zero (S := S1x256) zeros2]
  exact pay0_apply x0 x1 x2 x3 x4 x5 x6 x7 p q

end Cert.KernelIdeal.BodyValue

end
-- ==== Proof.KFinal0.lean ====
/-
  The first launch's output array, whole. The launch walks 25 grid points; point t stages rows 2000·t … 2000·t + 1999
  of its two row operands, the whole of its weight and vector operands, runs the body and writes the block back to rows
  2000·t … 2000·t + 1999 of the output. Since the body works row by row, what point t writes back is block t of ONE
  whole-array function of what the launch finds — row r of the output is the normalised rectified row of
  a_r·Wl + h_r·W0 + x_r·W1 + bias — and since the 25 blocks tile the 50000 rows, the output array ends at that function.
-/
import proofs.«105233_j20830591386265_2_alg».proof.Proof.KBody0

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- Row i₀ of a layer, feature i₁: the normalised rectified row of the three inner products plus the bias, from whole
    feature arrays and the layer's matrices given entry by entry (wl j k multiplies input feature k into output feature j). -/
def layerRows (A H X : FVec Ideal S50000x256 .f32) (wl w0 w1 : Fin 256 → Fin 256 → EReal) (bias g b : Fin 256 → EReal) :
    S50000x256.Idx → EReal :=
  fun i => Cert.GnnSpec.normRow
    (fun j => (((∑ k : Fin 256, A (ix2 (i 0) k) * wl j k) + (∑ k : Fin 256, H (ix2 (i 0) k) * w0 j k))
      + (∑ k : Fin 256, X (ix2 (i 0) k) * w1 j k)) + bias j) g b (i 1)

/-- The index maps of the first launch, decided over its 25 points: the two row operands and the output move with the
    point along the rows, every other operand stays at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

variable (V : (c : Dev nD) → (b : Ref sig .tc) → Buf (Elt Ideal) ((c : Thread nD τ).loc b)) (c : Dev nD)

/-- Row p of point t's block of a row operand is row 2000·t + p of its array. -/
theorem rd0_0 (t : Fin cfg0.N) (p : Fin 2000) (k : Fin 256) (r : Fin 50000) (hr : r.val = 2000 * t.val + p.val) :
    iblk0 V c 0 t (ix2 p k) = (V c main_v32 : S50000x256.Idx → EReal) (ix2 r k) := by
  show (V c main_v32 : S50000x256.Idx → EReal) (((cfg0.win 0).blk t).view.emb (ix2 p k)) = _
  refine congrArg _ (funext fun a => Fin.ext ?_)
  obtain ⟨e0, e1, -⟩ := idx0 t
  match a with
  | ⟨0, _⟩ => show win0_0.index t (0 : Fin 2) * 2000 + 1 * p.val = r.val; omega
  | ⟨1, _⟩ => show win0_0.index t (1 : Fin 2) * 256 + 1 * k.val = k.val; omega

theorem rd0_1 (t : Fin cfg0.N) (p : Fin 2000) (k : Fin 256) (r : Fin 50000) (hr : r.val = 2000 * t.val + p.val) :
    iblk0 V c 1 t (ix2 p k) = (V c main_arg0 : S50000x256.Idx → EReal) (ix2 r k) := by
  show (V c main_arg0 : S50000x256.Idx → EReal) (((cfg0.win 1).blk t).view.emb (ix2 p k)) = _
  refine congrArg _ (funext fun a => Fin.ext ?_)
  obtain ⟨-, -, e0, e1, -⟩ := idx0 t
  match a with
  | ⟨0, _⟩ => show win0_1.index t (0 : Fin 2) * 2000 + 1 * p.val = r.val; omega
  | ⟨1, _⟩ => show win0_1.index t (1 : Fin 2) * 256 + 1 * k.val = k.val; omega

theorem rd0_2 (t : Fin cfg0.N) (k j : Fin 256) :
    iblk0 V c 2 t (ix2 k j) = (V c main_v34 : S256x256.Idx → EReal) (ix2 k j) := by
  show (V c main_v34 : S256x256.Idx → EReal) (((cfg0.win 2).blk t).view.emb (ix2 k j)) = _
  refine congrArg _ (funext fun a => Fin.ext ?_)
  obtain ⟨-, -, -, -, e0, e1, -⟩ := idx0 t
  match a with
  | ⟨0, _⟩ => show win0_2.index t (0 : Fin 2) * 256 + 1 * k.val = k.val; omega
  | ⟨1, _⟩ => show win0_2.index t (1 : Fin 2) * 256 + 1 * j.val = j.val; omega

theorem rd0_3 (t : Fin cfg0.N) (k j : Fin 256) :
    iblk0 V c 3 t (ix2 k j) = (V c main_v36 : S256x256.Idx → EReal) (ix2 k j) := by
  show (V c main_v36 : S256x256.Idx → EReal) (((cfg0.win 3).blk t).view.emb (ix2 k j)) = _
  refine congrArg _ (funext fun a => Fin.ext ?_)
  obtain ⟨-, -, -, -, -, -, e0, e1, -⟩ := idx0 t
  match a with
  | ⟨0, _⟩ => show win0_3.index t (0 : Fin 2) * 256 + 1 * k.val = k.val; omega
  | ⟨1, _⟩ => show win0_3.index t (1 : Fin 2) * 256 + 1 * j.val = j.val; omega

theorem rd0_4 (t : Fin cfg0.N) (k j : Fin 256) :
    iblk0 V c 4 t (ix2 k j) = (V c main_v38 : S256x256.Idx → EReal) (ix2 k j) := by
  show (V c main_v38 : S256x256.Idx → EReal) (((cfg0.win 4).blk t).view.emb (ix2 k j)) = _
  refine congrArg _ (funext fun a => Fin.ext ?_)
  obtain ⟨-, -, -, -, -, -, -, -, e0, e1, -⟩ := idx0 t
  match a with
  | ⟨0, _⟩ => show win0_4.index t (0 : Fin 2) * 256 + 1 * k.val = k.val; omega
  | ⟨1, _⟩ => show win0_4.index t (1 : Fin 2) * 256 + 1 * j.val = j.val; omega

theorem rd0_5 (t : Fin cfg0.N) (j : Fin 256) :
    iblk0 V c 5 t (ix2 0 j) = (V c main_v40 : S1x256.Idx → EReal) (ix2 0 j) := by
  show (V c main_v40 : S1x256.Idx → EReal) (((cfg0.win 5).blk t).view.emb (ix2 0 j)) = _
  refine congrArg _ (funext fun a => Fin.ext ?_)
  obtain ⟨-, -, -, -, -, -, -, -, -, -, e0, e1, -⟩ := idx0 t
  match a with
  | ⟨0, _⟩ => show win0_5.index t (0 : Fin 2) * 1 + 1 * 0 = 0; omega
  | ⟨1, _⟩ => show win0_5.index t (1 : Fin 2) * 256 + 1 * j.val = j.val; omega

theorem rd0_6 (t : Fin cfg0.N) (j : Fin 256) :
    iblk0 V c 6 t (ix2 0 j) = (V c main_v42 : S1x256.Idx → EReal) (ix2 0 j) := by
  show (V c main_v42 : S1x256.Idx → EReal) (((cfg0.win 6).blk t).view.emb (ix2 0 j)) = _
  refine congrArg _ (funext fun a => Fin.ext ?_)
  obtain ⟨-, -, -, -, -, -, -, -, -, -, -, -, e0, e1, -⟩ := idx0 t
  match a with
  | ⟨0, _⟩ => show win0_6.index t (0 : Fin 2) * 1 + 1 * 0 = 0; omega
  | ⟨1, _⟩ => show win0_6.index t (1 : Fin 2) * 256 + 1 * j.val = j.val; omega

theorem rd0_7 (t : Fin cfg0.N) (j : Fin 256) :
    iblk0 V c 7 t (ix2 0 j) = (V c main_v44 : S1x256.Idx → EReal) (ix2 0 j) := by
  show (V c main_v44 : S1x256.Idx → EReal) (((cfg0.win 7).blk t).view.emb (ix2 0 j)) = _
  refine congrArg _ (funext fun a => Fin.ext ?_)
  obtain ⟨-, -, -, -, -, -, -, -, -, -, -, -, -, -, e0, e1, -⟩ := idx0 t
  match a with
  | ⟨0, _⟩ => show win0_7.index t (0 : Fin 2) * 1 + 1 * 0 = 0; omega
  | ⟨1, _⟩ => show win0_7.index t (1 : Fin 2) * 256 + 1 * j.val = j.val; omega

/-- Entry (p, q) of point t's output block is entry (2000·t + p, q) of the output array. -/
theorem emb0_8 (t : Fin cfg0.N) (p : Fin 2000) (q : Fin 256) (r : Fin 50000) (hr : r.val = 2000 * t.val + p.val) :
    ((cfg0.win 8).blk t).view.emb (ix2 p q) = (ix2 r q : S50000x256.Idx) := by
  refine funext fun a => Fin.ext ?_
  obtain ⟨-, -, -, -, -, -, -, -, -, -, -, -, -, -, -, -, e0, e1⟩ := idx0 t
  match a with
  | ⟨0, _⟩ => show win0_8.index t (0 : Fin 2) * 2000 + 1 * p.val = r.val; omega
  | ⟨1, _⟩ => show win0_8.index t (1 : Fin 2) * 256 + 1 * q.val = q.val; omega

section
variable (A X : FVec Ideal S50000x256 .f32) (wl w0 w1 : Fin 256 → Fin 256 → EReal) (bias g b : Fin 256 → EReal)
  (hA : (V c main_v32 : S50000x256.Idx → EReal) = A) (hX : (V c main_arg0 : S50000x256.Idx → EReal) = X)
  (hwl : ∀ k j, (V c main_v34 : S256x256.Idx → EReal) (ix2 k j) = wl j k)
  (hw0 : ∀ k j, (V c main_v36 : S256x256.Idx → EReal) (ix2 k j) = w0 j k)
  (hw1 : ∀ k j, (V c main_v38 : S256x256.Idx → EReal) (ix2 k j) = w1 j k)
  (hbias : ∀ j, (V c main_v40 : S1x256.Idx → EReal) (ix2 0 j) = bias j)
  (hg : ∀ j, (V c main_v42 : S1x256.Idx → EReal) (ix2 0 j) = g j)
  (hb : ∀ j, (V c main_v44 : S1x256.Idx → EReal) (ix2 0 j) = b j)
include hA hX hwl hw0 hw1 hbias hg hb

/-- What point t writes back is block t of the layer's rows of what the launch finds. -/
theorem flushed0 (t : Fin cfg0.N) :
    (dat0 V c).flushed 8 t = ((cfg0.win 8).blk t).view.read (Elt Ideal) (layerRows A X X wl w0 w1 bias g b) := by
  show (cfg0.win 8).cut (grid0.coords t) ((dat0 V c).after 8 t) = _
  rw [after0_8]
  funext y
  obtain ⟨p, q, rfl⟩ : ∃ (p : Fin 2000) (q : Fin 256), y = ix2 p q := ⟨y 0, y 1, eq_ix2 y⟩
  have hlt : 2000 * t.val + p.val < 50000 := by
    have h1 : t.val < 25 := Nat.lt_of_lt_of_eq t.isLt N_0
    have h2 := p.isLt
    omega
  show out0_8 (iblk0 V c 0 t) (iblk0 V c 1 t) (iblk0 V c 2 t) (iblk0 V c 3 t) (iblk0 V c 4 t) (iblk0 V c 5 t) (iblk0 V c 6 t) (iblk0 V c 7 t) (ix2 p q)
    = layerRows A X X wl w0 w1 bias g b (((cfg0.win 8).blk t).view.emb (ix2 p q))
  rw [Cert.KernelIdeal.BodyValue.out0_8_apply, emb0_8 t p q ⟨2000 * t.val + p.val, hlt⟩ rfl]
  unfold layerRows
  simp only [rd0_0 V c t p _ ⟨2000 * t.val + p.val, hlt⟩ rfl, rd0_1 V c t p _ ⟨2000 * t.val + p.val, hlt⟩ rfl,
    rd0_2 V c t, rd0_3 V c t, rd0_4 V c t, rd0_5 V c t, rd0_6 V c t, rd0_7 V c t, hA, hX, hwl, hw0, hw1, hbias, hg, hb]

end

/-- An index of the output array is in point t's block iff each coordinate is in the block's range on its axis. -/
theorem mem_blk0_8 (t : Fin cfg0.N) (i : S50000x256.Idx) :
    i ∈ ((cfg0.win 8).blk t).view.set ↔ ∀ a : Fin 2, win0_8.index t a * S2000x256.size a ≤ (i a).val ∧ (i a).val < win0_8.index t a * S2000x256.size a + S2000x256.size a := by
  show i ∈ ((View.whole main_v45).slice (win0_8.rect t)).set ↔ _
  rw [View.set_slice_whole, Rect.mem_set_unit]
  exact Iff.rfl

/-- The 25 blocks tile the output: row r lies in the block of point r / 2000. -/
theorem cover0 (i : S50000x256.Idx) : ∃ t : Fin cfg0.N, (cfg0.win 8).flush t = true ∧ i ∈ ((cfg0.win 8).blk t).view.set := by
  have hi0 : (i 0).val < 50000 := (i 0).isLt
  have hi1 : (i 1).val < 256 := (i 1).isLt
  have hN : cfg0.N = 25 := N_0
  refine ⟨⟨(i 0).val / 2000, by rw [hN]; omega⟩, flush0_8 _, ?_⟩
  rw [mem_blk0_8]
  obtain ⟨-, -, -, -, -, -, -, -, -, -, -, -, -, -, -, -, e0, e1⟩ := idx0 ⟨(i 0).val / 2000, by rw [hN]; omega⟩
  intro a
  match a with
  | ⟨0, _⟩ =>
    show win0_8.index ⟨(i 0).val / 2000, _⟩ (0 : Fin 2) * 2000 ≤ (i 0).val ∧ (i 0).val < win0_8.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win0_8.index ⟨(i 0).val / 2000, _⟩ (1 : Fin 2) * 256 ≤ (i 1).val ∧ (i 1).val < win0_8.index ⟨(i 0).val / 2000, _⟩ (1 : Fin 2) * 256 + 256
    rw [e1]; omega

/-- THE OUTPUT ARRAY of the first launch: the layer's rows of what the launch finds. -/
theorem final0 (A X : FVec Ideal S50000x256 .f32) (wl w0 w1 : Fin 256 → Fin 256 → EReal) (bias g b : Fin 256 → EReal)
    (hA : (V c main_v32 : S50000x256.Idx → EReal) = A) (hX : (V c main_arg0 : S50000x256.Idx → EReal) = X)
    (hwl : ∀ k j, (V c main_v34 : S256x256.Idx → EReal) (ix2 k j) = wl j k)
    (hw0 : ∀ k j, (V c main_v36 : S256x256.Idx → EReal) (ix2 k j) = w0 j k)
    (hw1 : ∀ k j, (V c main_v38 : S256x256.Idx → EReal) (ix2 k j) = w1 j k)
    (hbias : ∀ j, (V c main_v40 : S1x256.Idx → EReal) (ix2 0 j) = bias j)
    (hg : ∀ j, (V c main_v42 : S1x256.Idx → EReal) (ix2 0 j) = g j)
    (hb : ∀ j, (V c main_v44 : S1x256.Idx → EReal) (ix2 0 j) = b j) :
    (dat0 V c).arrAt 8 cfg0.N = layerRows A X X wl w0 w1 bias g b :=
  (dat0 V c).arrAt_eq_of_cover 8 _ (fun t _ => flushed0 V c A X wl w0 w1 bias g b hA hX hwl hw0 hw1 hbias hg hb t) cover0

end Cert.KernelIdeal.KValue

end
-- ==== Proof.KFinal1.lean ====
/-
  The second launch's output array, whole. As in the first launch, point t stages rows 2000·t … 2000·t + 1999 of its
  three row operands and the whole of every other operand, and writes its 2000 × 128 block back to the same rows of
  the output. Row r of the output is the output map of the layer's row r: Σ_k (layer row r)_k · Wout[o, k] + bout[o].
  The 25 blocks tile the 50000 rows, so the output array ends at that function of what the launch finds.
-/
import proofs.«105233_j20830591386265_2_alg».proof.Proof.KBody1
import proofs.«105233_j20830591386265_2_alg».proof.Proof.KFinal0

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- Row i₀, output feature i₁ of the network's result: the output map (wo o k multiplies layer feature k into output
    feature o) of the layer's rows. -/
def outRows (A H X : FVec Ideal S50000x256 .f32) (wl w0 w1 : Fin 256 → Fin 256 → EReal) (bias g b : Fin 256 → EReal)
    (wo : Fin 128 → Fin 256 → EReal) (bo : Fin 128 → EReal) : S50000x128.Idx → EReal :=
  fun i => (∑ k : Fin 256, layerRows A H X wl w0 w1 bias g b (ix2 (i 0) k) * wo (i 1) k) + bo (i 1)

/-- The index maps of the second launch, decided over its 25 points: the three row operands and the output move with
    the point along the rows, every other operand stays at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = t.val ∧ win1_11.index t (1 : Fin 2) = 0 :=
  (by decide +kernel : ∀ t : Fin grid1.N, _)

variable (V : (c : Dev nD) → (b : Ref sig .tc) → Buf (Elt Ideal) ((c : Thread nD τ).loc b)) (c : Dev nD)

theorem rd1_0 (t : Fin cfg1.N) (p : Fin 2000) (k : Fin 256) (r : Fin 50000) (hr : r.val = 2000 * t.val + p.val) :
    iblk1 V c 0 t (ix2 p k) = (V c main_v65 : S50000x256.Idx → EReal) (ix2 r k) := by
  show (V c main_v65 : S50000x256.Idx → EReal) (((cfg1.win 0).blk t).view.emb (ix2 p k)) = _
  refine congrArg _ (funext fun a => Fin.ext ?_)
  obtain ⟨e0, e1, -⟩ := idx1 t
  match a with
  | ⟨0, _⟩ => show win1_0.index t (0 : Fin 2) * 2000 + 1 * p.val = r.val; omega
  | ⟨1, _⟩ => show win1_0.index t (1 : Fin 2) * 256 + 1 * k.val = k.val; omega

theorem rd1_1 (t : Fin cfg1.N) (p : Fin 2000) (k : Fin 256) (r : Fin 50000) (hr : r.val = 2000 * t.val + p.val) :
    iblk1 V c 1 t (ix2 p k) = (V c main_v45 : S50000x256.Idx → EReal) (ix2 r k) := by
  show (V c main_v45 : S50000x256.Idx → EReal) (((cfg1.win 1).blk t).view.emb (ix2 p k)) = _
  refine congrArg _ (funext fun a => Fin.ext ?_)
  obtain ⟨-, -, e0, e1, -⟩ := idx1 t
  match a with
  | ⟨0, _⟩ => show win1_1.index t (0 : Fin 2) * 2000 + 1 * p.val = r.val; omega
  | ⟨1, _⟩ => show win1_1.index t (1 : Fin 2) * 256 + 1 * k.val = k.val; omega

theorem rd1_2 (t : Fin cfg1.N) (p : Fin 2000) (k : Fin 256) (r : Fin 50000) (hr : r.val = 2000 * t.val + p.val) :
    iblk1 V c 2 t (ix2 p k) = (V c main_arg0 : S50000x256.Idx → EReal) (ix2 r k) := by
  show (V c main_arg0 : S50000x256.Idx → EReal) (((cfg1.win 2).blk t).view.emb (ix2 p k)) = _
  refine congrArg _ (funext fun a => Fin.ext ?_)
  obtain ⟨-, -, -, -, e0, e1, -⟩ := idx1 t
  match a with
  | ⟨0, _⟩ => show win1_2.index t (0 : Fin 2) * 2000 + 1 * p.val = r.val; omega
  | ⟨1, _⟩ => show win1_2.index t (1 : Fin 2) * 256 + 1 * k.val = k.val; omega

theorem rd1_3 (t : Fin cfg1.N) (k j : Fin 256) :
    iblk1 V c 3 t (ix2 k j) = (V c main_v67 : S256x256.Idx → EReal) (ix2 k j) := by
  show (V c main_v67 : S256x256.Idx → EReal) (((cfg1.win 3).blk t).view.emb (ix2 k j)) = _
  refine congrArg _ (funext fun a => Fin.ext ?_)
  obtain ⟨-, -, -, -, -, -, e0, e1, -⟩ := idx1 t
  match a with
  | ⟨0, _⟩ => show win1_3.index t (0 : Fin 2) * 256 + 1 * k.val = k.val; omega
  | ⟨1, _⟩ => show win1_3.index t (1 : Fin 2) * 256 + 1 * j.val = j.val; omega

theorem rd1_4 (t : Fin cfg1.N) (k j : Fin 256) :
    iblk1 V c 4 t (ix2 k j) = (V c main_v69 : S256x256.Idx → EReal) (ix2 k j) := by
  show (V c main_v69 : S256x256.Idx → EReal) (((cfg1.win 4).blk t).view.emb (ix2 k j)) = _
  refine congrArg _ (funext fun a => Fin.ext ?_)
  obtain ⟨-, -, -, -, -, -, -, -, e0, e1, -⟩ := idx1 t
  match a with
  | ⟨0, _⟩ => show win1_4.index t (0 : Fin 2) * 256 + 1 * k.val = k.val; omega
  | ⟨1, _⟩ => show win1_4.index t (1 : Fin 2) * 256 + 1 * j.val = j.val; omega

theorem rd1_5 (t : Fin cfg1.N) (k j : Fin 256) :
    iblk1 V c 5 t (ix2 k j) = (V c main_v71 : S256x256.Idx → EReal) (ix2 k j) := by
  show (V c main_v71 : S256x256.Idx → EReal) (((cfg1.win 5).blk t).view.emb (ix2 k j)) = _
  refine congrArg _ (funext fun a => Fin.ext ?_)
  obtain ⟨-, -, -, -, -, -, -, -, -, -, e0, e1, -⟩ := idx1 t
  match a with
  | ⟨0, _⟩ => show win1_5.index t (0 : Fin 2) * 256 + 1 * k.val = k.val; omega
  | ⟨1, _⟩ => show win1_5.index t (1 : Fin 2) * 256 + 1 * j.val = j.val; omega

theorem rd1_6 (t : Fin cfg1.N) (j : Fin 256) :
    iblk1 V c 6 t (ix2 0 j) = (V c main_v73 : S1x256.Idx → EReal) (ix2 0 j) := by
  show (V c main_v73 : S1x256.Idx → EReal) (((cfg1.win 6).blk t).view.emb (ix2 0 j)) = _
  refine congrArg _ (funext fun a => Fin.ext ?_)
  obtain ⟨-, -, -, -, -, -, -, -, -, -, -, -, e0, e1, -⟩ := idx1 t
  match a with
  | ⟨0, _⟩ => show win1_6.index t (0 : Fin 2) * 1 + 1 * 0 = 0; omega
  | ⟨1, _⟩ => show win1_6.index t (1 : Fin 2) * 256 + 1 * j.val = j.val; omega

theorem rd1_7 (t : Fin cfg1.N) (j : Fin 256) :
    iblk1 V c 7 t (ix2 0 j) = (V c main_v75 : S1x256.Idx → EReal) (ix2 0 j) := by
  show (V c main_v75 : S1x256.Idx → EReal) (((cfg1.win 7).blk t).view.emb (ix2 0 j)) = _
  refine congrArg _ (funext fun a => Fin.ext ?_)
  obtain ⟨-, -, -, -, -, -, -, -, -, -, -, -, -, -, e0, e1, -⟩ := idx1 t
  match a with
  | ⟨0, _⟩ => show win1_7.index t (0 : Fin 2) * 1 + 1 * 0 = 0; omega
  | ⟨1, _⟩ => show win1_7.index t (1 : Fin 2) * 256 + 1 * j.val = j.val; omega

theorem rd1_8 (t : Fin cfg1.N) (j : Fin 256) :
    iblk1 V c 8 t (ix2 0 j) = (V c main_v77 : S1x256.Idx → EReal) (ix2 0 j) := by
  show (V c main_v77 : S1x256.Idx → EReal) (((cfg1.win 8).blk t).view.emb (ix2 0 j)) = _
  refine congrArg _ (funext fun a => Fin.ext ?_)
  obtain ⟨-, -, -, -, -, -, -, -, -, -, -, -, -, -, -, -, e0, e1, -⟩ := idx1 t
  match a with
  | ⟨0, _⟩ => show win1_8.index t (0 : Fin 2) * 1 + 1 * 0 = 0; omega
  | ⟨1, _⟩ => show win1_8.index t (1 : Fin 2) * 256 + 1 * j.val = j.val; omega

theorem rd1_9 (t : Fin cfg1.N) (k : Fin 256) (o : Fin 128) :
    iblk1 V c 9 t (ix2 k o) = (V c main_v7 : S256x128.Idx → EReal) (ix2 k o) := by
  show (V c main_v7 : S256x128.Idx → EReal) (((cfg1.win 9).blk t).view.emb (ix2 k o)) = _
  refine congrArg _ (funext fun a => Fin.ext ?_)
  obtain ⟨-, -, -, -, -, -, -, -, -, -, -, -, -, -, -, -, -, -, e0, e1, -⟩ := idx1 t
  match a with
  | ⟨0, _⟩ => show win1_9.index t (0 : Fin 2) * 256 + 1 * k.val = k.val; omega
  | ⟨1, _⟩ => show win1_9.index t (1 : Fin 2) * 128 + 1 * o.val = o.val; omega

theorem rd1_10 (t : Fin cfg1.N) (o : Fin 128) :
    iblk1 V c 10 t (ix2 0 o) = (V c main_v13 : S1x128.Idx → EReal) (ix2 0 o) := by
  show (V c main_v13 : S1x128.Idx → EReal) (((cfg1.win 10).blk t).view.emb (ix2 0 o)) = _
  refine congrArg _ (funext fun a => Fin.ext ?_)
  obtain ⟨-, -, -, -, -, -, -, -, -, -, -, -, -, -, -, -, -, -, -, -, e0, e1, -⟩ := idx1 t
  match a with
  | ⟨0, _⟩ => show win1_10.index t (0 : Fin 2) * 1 + 1 * 0 = 0; omega
  | ⟨1, _⟩ => show win1_10.index t (1 : Fin 2) * 128 + 1 * o.val = o.val; omega

/-- Entry (p, o) of point t's output block is entry (2000·t + p, o) of the output array. -/
theorem emb1_11 (t : Fin cfg1.N) (p : Fin 2000) (o : Fin 128) (r : Fin 50000) (hr : r.val = 2000 * t.val + p.val) :
    ((cfg1.win 11).blk t).view.emb (ix2 p o) = (ix2 r o : S50000x128.Idx) := by
  refine funext fun a => Fin.ext ?_
  obtain ⟨-, -, -, -, -, -, -, -, -, -, -, -, -, -, -, -, -, -, -, -, -, -, e0, e1⟩ := idx1 t
  match a with
  | ⟨0, _⟩ => show win1_11.index t (0 : Fin 2) * 2000 + 1 * p.val = r.val; omega
  | ⟨1, _⟩ => show win1_11.index t (1 : Fin 2) * 128 + 1 * o.val = o.val; omega

/-- What point t writes back is block t of the result's rows of what the launch finds. -/
theorem flushed1 (A H X : FVec Ideal S50000x256 .f32) (wl w0 w1 : Fin 256 → Fin 256 → EReal) (bias g b : Fin 256 → EReal)
    (wo : Fin 128 → Fin 256 → EReal) (bo : Fin 128 → EReal)
    (hA : (V c main_v65 : S50000x256.Idx → EReal) = A) (hH : (V c main_v45 : S50000x256.Idx → EReal) = H)
    (hX : (V c main_arg0 : S50000x256.Idx → EReal) = X)
    (hwl : ∀ k j, (V c main_v67 : S256x256.Idx → EReal) (ix2 k j) = wl j k)
    (hw0 : ∀ k j, (V c main_v69 : S256x256.Idx → EReal) (ix2 k j) = w0 j k)
    (hw1 : ∀ k j, (V c main_v71 : S256x256.Idx → EReal) (ix2 k j) = w1 j k)
    (hbias : ∀ j, (V c main_v73 : S1x256.Idx → EReal) (ix2 0 j) = bias j)
    (hg : ∀ j, (V c main_v75 : S1x256.Idx → EReal) (ix2 0 j) = g j)
    (hb : ∀ j, (V c main_v77 : S1x256.Idx → EReal) (ix2 0 j) = b j)
    (hwo : ∀ k o, (V c main_v7 : S256x128.Idx → EReal) (ix2 k o) = wo o k)
    (hbo : ∀ o, (V c main_v13 : S1x128.Idx → EReal) (ix2 0 o) = bo o) (t : Fin cfg1.N) :
    (dat1 V c).flushed 11 t = ((cfg1.win 11).blk t).view.read (Elt Ideal) (outRows A H X wl w0 w1 bias g b wo bo) := by
  show (cfg1.win 11).cut (grid1.coords t) ((dat1 V c).after 11 t) = _
  rw [after1_11]
  funext y
  obtain ⟨p, o, rfl⟩ : ∃ (p : Fin 2000) (o : Fin 128), y = ix2 p o := ⟨y 0, y 1, eq_ix2 y⟩
  have hlt : 2000 * t.val + p.val < 50000 := by
    have h1 : t.val < 25 := Nat.lt_of_lt_of_eq t.isLt N_1
    have h2 := p.isLt
    omega
  show out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (ix2 p o)
    = outRows A H X wl w0 w1 bias g b wo bo (((cfg1.win 11).blk t).view.emb (ix2 p o))
  rw [Cert.KernelIdeal.BodyValue.out1_11_apply, emb1_11 t p o ⟨2000 * t.val + p.val, hlt⟩ rfl]
  unfold outRows layerRows
  simp only [rd1_0 V c t p _ ⟨2000 * t.val + p.val, hlt⟩ rfl, rd1_1 V c t p _ ⟨2000 * t.val + p.val, hlt⟩ rfl,
    rd1_2 V c t p _ ⟨2000 * t.val + p.val, hlt⟩ rfl,
    rd1_3 V c t, rd1_4 V c t, rd1_5 V c t, rd1_6 V c t, rd1_7 V c t, rd1_8 V c t, rd1_9 V c t, rd1_10 V c t,
    hA, hH, hX, hwl, hw0, hw1, hbias, hg, hb, hwo, hbo]

/-- An index of the output array is in point t's block iff each coordinate is in the block's range on its axis. -/
theorem mem_blk1_11 (t : Fin cfg1.N) (i : S50000x128.Idx) :
    i ∈ ((cfg1.win 11).blk t).view.set ↔ ∀ a : Fin 2, win1_11.index t a * S2000x128.size a ≤ (i a).val ∧ (i a).val < win1_11.index t a * S2000x128.size a + S2000x128.size a := by
  show i ∈ ((View.whole main_v78).slice (win1_11.rect t)).set ↔ _
  rw [View.set_slice_whole, Rect.mem_set_unit]
  exact Iff.rfl

/-- The 25 blocks tile the output: row r lies in the block of point r / 2000. -/
theorem cover1 (i : S50000x128.Idx) : ∃ t : Fin cfg1.N, (cfg1.win 11).flush t = true ∧ i ∈ ((cfg1.win 11).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_11 _, ?_⟩
  rw [mem_blk1_11]
  obtain ⟨-, -, -, -, -, -, -, -, -, -, -, -, -, -, -, -, -, -, -, -, -, -, e0, e1⟩ := idx1 ⟨(i 0).val / 2000, by rw [hN]; omega⟩
  intro a
  match a with
  | ⟨0, _⟩ =>
    show win1_11.index ⟨(i 0).val / 2000, _⟩ (0 : Fin 2) * 2000 ≤ (i 0).val ∧ (i 0).val < win1_11.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win1_11.index ⟨(i 0).val / 2000, _⟩ (1 : Fin 2) * 128 ≤ (i 1).val ∧ (i 1).val < win1_11.index ⟨(i 0).val / 2000, _⟩ (1 : Fin 2) * 128 + 128
    rw [e1]; omega

/-- THE OUTPUT ARRAY of the second launch: the result's rows of what the launch finds. -/
theorem final1 (A H X : FVec Ideal S50000x256 .f32) (wl w0 w1 : Fin 256 → Fin 256 → EReal) (bias g b : Fin 256 → EReal)
    (wo : Fin 128 → Fin 256 → EReal) (bo : Fin 128 → EReal)
    (hA : (V c main_v65 : S50000x256.Idx → EReal) = A) (hH : (V c main_v45 : S50000x256.Idx → EReal) = H)
    (hX : (V c main_arg0 : S50000x256.Idx → EReal) = X)
    (hwl : ∀ k j, (V c main_v67 : S256x256.Idx → EReal) (ix2 k j) = wl j k)
    (hw0 : ∀ k j, (V c main_v69 : S256x256.Idx → EReal) (ix2 k j) = w0 j k)
    (hw1 : ∀ k j, (V c main_v71 : S256x256.Idx → EReal) (ix2 k j) = w1 j k)
    (hbias : ∀ j, (V c main_v73 : S1x256.Idx → EReal) (ix2 0 j) = bias j)
    (hg : ∀ j, (V c main_v75 : S1x256.Idx → EReal) (ix2 0 j) = g j)
    (hb : ∀ j, (V c main_v77 : S1x256.Idx → EReal) (ix2 0 j) = b j)
    (hwo : ∀ k o, (V c main_v7 : S256x128.Idx → EReal) (ix2 k o) = wo o k)
    (hbo : ∀ o, (V c main_v13 : S1x128.Idx → EReal) (ix2 0 o) = bo o) :
    (dat1 V c).arrAt 11 cfg1.N = outRows A H X wl w0 w1 bias g b wo bo :=
  (dat1 V c).arrAt_eq_of_cover 11 _ (fun t _ => flushed1 V c A H X wl w0 w1 bias g b wo bo hA hH hX hwl hw0 hw1 hbias hg hb hwo hbo t) cover1

end Cert.KernelIdeal.KValue

end
-- ==== Proof.KResult.lean ====
/-
  The kernel program's result as ONE function of its arguments. The first launch's output is layer 1 of the
  specification applied to the aggregation of x along the second edge array, x and x; the second launch's output — the
  program's result — is the output map of layer 0 applied to the aggregation of that first output along the first
  edge array, the first output and x. Each is what the launch's 25 blocks assemble to, read with what the host
  operations before the launch leave in the arrays the launch stages.
-/
import proofs.«105233_j20830591386265_2_alg».proof.Proof.KRun
import proofs.«105233_j20830591386265_2_alg».proof.Proof.KHost1
import proofs.«105233_j20830591386265_2_alg».proof.Proof.KFinal1

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem

/-- The layer's rows from matrices and vectors given as layer l of the stacked parameters are the specification's layer l. -/
theorem layerRows_eq_layer (A H X : FVec Ideal S50000x256 .f32) (Wl W0 W1 : FVec Ideal S2x256x256 .f32)
    (bl b0 b1 g b : FVec Ideal S2x256 .f32) (l : Fin 2) :
    layerRows A H X (fun j k => Wl (ix3 l j k)) (fun j k => W0 (ix3 l j k)) (fun j k => W1 (ix3 l j k))
        (fun j => (bl (ix2 l j) + b0 (ix2 l j)) + b1 (ix2 l j)) (fun j => g (ix2 l j)) (fun j => b (ix2 l j))
      = Cert.GnnSpec.layer A H X Wl W0 W1 bl b0 b1 g b l := rfl

/-- The result's rows are the specification's output map of the layer's rows. -/
theorem outRows_eq_proj (A H X : FVec Ideal S50000x256 .f32) (wl w0 w1 : Fin 256 → Fin 256 → EReal) (bias g b : Fin 256 → EReal)
    (Wout : FVec Ideal S128x256 .f32) (bout : FVec Ideal S128 .f32) :
    outRows A H X wl w0 w1 bias g b (fun o k => Wout (ix2 o k)) (fun o => bout (ix1 o))
      = Cert.GnnSpec.proj (layerRows A H X wl w0 w1 bias g b) Wout bout := rfl

variable (m : (ℓ : Loc nD τ sig) → Buf (Elt Ideal) ℓ) (ρ : Dev nD → PrngReg) (c : Dev nD)

/-- The first launch's output: the specification's layer 1. -/
theorem hidden_eq :
    (hidden m ρ c : S50000x256.Idx → EReal)
      = Cert.GnnSpec.layer (agg (aX m c) (aE2 m c)) (aX m c) (aX m c) (aWl m c) (aW0 m c) (aW1 m c)
          (aBl m c) (aB0 m c) (aB1 m c) (aG m c) (aBe m c) 1 := by
  rw [← layerRows_eq_layer]
  exact (W2_arr m ρ c 8).trans (final0 (V1 m ρ) c _ _ _ _ _ _ _ _ (entry0_agg m ρ c) (entry0_x m ρ c)
    (entry0_wl m ρ c) (entry0_w0 m ρ c) (entry0_w1 m ρ c) (entry0_bias m ρ c) (entry0_gamma m ρ c) (entry0_beta m ρ c))

/-- The program's result: the specification's output map of layer 0. -/
theorem result_value :
    (W4 m ρ c (Proc.devRef .tc main_v78) : S50000x128.Idx → EReal)
      = Cert.GnnSpec.proj
          (Cert.GnnSpec.layer (aggNarrow (hidden m ρ c) (aE1 m c)) (hidden m ρ c) (aX m c) (aWl m c) (aW0 m c) (aW1 m c)
            (aBl m c) (aB0 m c) (aB1 m c) (aG m c) (aBe m c) 0)
          (aWo m c) (aBo m c) := by
  rw [← layerRows_eq_layer, ← outRows_eq_proj]
  exact (result_arr m ρ c).trans (final1 (V3 m ρ) c _ _ _ _ _ _ _ _ _ _ _ (entry1_agg m ρ c) (entry1_h m ρ c) (entry1_x m ρ c)
    (entry1_wl m ρ c) (entry1_w0 m ρ c) (entry1_w1 m ρ c) (entry1_bias m ρ c) (entry1_gamma m ρ c) (entry1_beta m ρ c)
    (entry1_wout m ρ c) (entry1_bout m ρ c))

end Cert.KernelIdeal.KValue

end
-- ==== Proof.RefParams.lean ====
import proofs.«105233_j20830591386265_2_alg».proof.Proof.Gen.ReferenceIdeal.Read
import Idealize.ShloMosaic.Lib.ValueIdx

noncomputable section

open Cert.ReferenceIdeal Cert.ReferenceIdeal.Gen Cert.ReferenceIdeal.Read Idealize.ShloMosaic Idealize.ShloMosaic.ValueIdx

namespace Cert.ReferenceIdeal.RefValue

/-! ## The parameters as the reference prepares them, read at an index

Each weight matrix enters a product as slice l of its stack, reshaped to a square and transposed: at (k, j) it is
the stack at (l, j, k), because (j · 256 + k) / 256 mod 256 = j and (j · 256 + k) mod 256 = k for j, k below 256.
Each bias, scale and shift row enters as slice l of its stack, reshaped to a row and broadcast over the nodes: at
(r, j) it is the stack at (l, j). Layer index 1 runs first. -/

/-! ### Layer index 1 -/

theorem wl1_apply (x3 : (⟨S2x256x256, .f32⟩ : BufTy).Contents (Elt Ideal)) (k j : Fin 256) :
    val_main_v16 (F := Ideal) x3 (ix2 k j) = x3 (ix3 1 j k) := by
  rw [val_main_v16_apply, val_main_v15_apply, val_main_v14_apply]
  refine congrArg x3 (funext fun a => Fin.ext ?_)
  have hj := j.isLt
  have hk := k.isLt
  match a with
  | ⟨0, _⟩ => rfl
  | ⟨1, _⟩ => show (j.val * 256 + k.val) / 256 % 256 = j.val; omega
  | ⟨2, _⟩ => show (j.val * 256 + k.val) % 256 = k.val; omega

theorem w01_apply (x5 : (⟨S2x256x256, .f32⟩ : BufTy).Contents (Elt Ideal)) (k j : Fin 256) :
    val_main_v25 (F := Ideal) x5 (ix2 k j) = x5 (ix3 1 j k) := by
  rw [val_main_v25_apply, val_main_v24_apply, val_main_v23_apply]
  refine congrArg x5 (funext fun a => Fin.ext ?_)
  have hj := j.isLt
  have hk := k.isLt
  match a with
  | ⟨0, _⟩ => rfl
  | ⟨1, _⟩ => show (j.val * 256 + k.val) / 256 % 256 = j.val; omega
  | ⟨2, _⟩ => show (j.val * 256 + k.val) % 256 = k.val; omega

theorem w11_apply (x7 : (⟨S2x256x256, .f32⟩ : BufTy).Contents (Elt Ideal)) (k j : Fin 256) :
    val_main_v35 (F := Ideal) x7 (ix2 k j) = x7 (ix3 1 j k) := by
  rw [val_main_v35_apply, val_main_v34_apply, val_main_v33_apply]
  refine congrArg x7 (funext fun a => Fin.ext ?_)
  have hj := j.isLt
  have hk := k.isLt
  match a with
  | ⟨0, _⟩ => rfl
  | ⟨1, _⟩ => show (j.val * 256 + k.val) / 256 % 256 = j.val; omega
  | ⟨2, _⟩ => show (j.val * 256 + k.val) % 256 = k.val; omega

theorem bl1_apply (x4 : (⟨S2x256, .f32⟩ : BufTy).Contents (Elt Ideal)) (r : Fin 50000) (j : Fin 256) :
    val_main_v21 (F := Ideal) x4 (ix2 r j) = x4 (ix2 1 j) := by
  rw [val_main_v21_apply, val_main_v20_apply, val_main_v19_apply, val_main_v18_apply]
  refine congrArg x4 (funext fun a => Fin.ext ?_)
  have hj := j.isLt
  match a with
  | ⟨0, _⟩ => rfl
  | ⟨1, _⟩ => show j.val % 256 = j.val; omega

theorem b01_apply (x6 : (⟨S2x256, .f32⟩ : BufTy).Contents (Elt Ideal)) (r : Fin 50000) (j : Fin 256) :
    val_main_v31 (F := Ideal) x6 (ix2 r j) = x6 (ix2 1 j) := by
  rw [val_main_v31_apply, val_main_v30_apply, val_main_v29_apply, val_main_v28_apply]
  refine congrArg x6 (funext fun a => Fin.ext ?_)
  have hj := j.isLt
  match a with
  | ⟨0, _⟩ => rfl
  | ⟨1, _⟩ => show j.val % 256 = j.val; omega

theorem b11_apply (x8 : (⟨S2x256, .f32⟩ : BufTy).Contents (Elt Ideal)) (r : Fin 50000) (j : Fin 256) :
    val_main_v41 (F := Ideal) x8 (ix2 r j) = x8 (ix2 1 j) := by
  rw [val_main_v41_apply, val_main_v40_apply, val_main_v39_apply, val_main_v38_apply]
  refine congrArg x8 (funext fun a => Fin.ext ?_)
  have hj := j.isLt
  match a with
  | ⟨0, _⟩ => rfl
  | ⟨1, _⟩ => show j.val % 256 = j.val; omega

theorem g1_apply (x9 : (⟨S2x256, .f32⟩ : BufTy).Contents (Elt Ideal)) (r : Fin 50000) (j : Fin 256) :
    val_main_v65 (F := Ideal) x9 (ix2 r j) = x9 (ix2 1 j) := by
  rw [val_main_v65_apply, val_main_v64_apply, val_main_v63_apply, val_main_v62_apply]
  refine congrArg x9 (funext fun a => Fin.ext ?_)
  have hj := j.isLt
  match a with
  | ⟨0, _⟩ => rfl
  | ⟨1, _⟩ => show j.val % 256 = j.val; omega

theorem be1_apply (x10 : (⟨S2x256, .f32⟩ : BufTy).Contents (Elt Ideal)) (r : Fin 50000) (j : Fin 256) :
    val_main_v70 (F := Ideal) x10 (ix2 r j) = x10 (ix2 1 j) := by
  rw [val_main_v70_apply, val_main_v69_apply, val_main_v68_apply, val_main_v67_apply]
  refine congrArg x10 (funext fun a => Fin.ext ?_)
  have hj := j.isLt
  match a with
  | ⟨0, _⟩ => rfl
  | ⟨1, _⟩ => show j.val % 256 = j.val; omega

/-! ### Layer index 0 -/

theorem wl0_apply (x3 : (⟨S2x256x256, .f32⟩ : BufTy).Contents (Elt Ideal)) (k j : Fin 256) :
    val_main_v88 (F := Ideal) x3 (ix2 k j) = x3 (ix3 0 j k) := by
  rw [val_main_v88_apply, val_main_v87_apply, val_main_v86_apply]
  refine congrArg x3 (funext fun a => Fin.ext ?_)
  have hj := j.isLt
  have hk := k.isLt
  match a with
  | ⟨0, _⟩ => rfl
  | ⟨1, _⟩ => show (j.val * 256 + k.val) / 256 % 256 = j.val; omega
  | ⟨2, _⟩ => show (j.val * 256 + k.val) % 256 = k.val; omega

theorem w00_apply (x5 : (⟨S2x256x256, .f32⟩ : BufTy).Contents (Elt Ideal)) (k j : Fin 256) :
    val_main_v97 (F := Ideal) x5 (ix2 k j) = x5 (ix3 0 j k) := by
  rw [val_main_v97_apply, val_main_v96_apply, val_main_v95_apply]
  refine congrArg x5 (funext fun a => Fin.ext ?_)
  have hj := j.isLt
  have hk := k.isLt
  match a with
  | ⟨0, _⟩ => rfl
  | ⟨1, _⟩ => show (j.val * 256 + k.val) / 256 % 256 = j.val; omega
  | ⟨2, _⟩ => show (j.val * 256 + k.val) % 256 = k.val; omega

theorem w10_apply (x7 : (⟨S2x256x256, .f32⟩ : BufTy).Contents (Elt Ideal)) (k j : Fin 256) :
    val_main_v107 (F := Ideal) x7 (ix2 k j) = x7 (ix3 0 j k) := by
  rw [val_main_v107_apply, val_main_v106_apply, val_main_v105_apply]
  refine congrArg x7 (funext fun a => Fin.ext ?_)
  have hj := j.isLt
  have hk := k.isLt
  match a with
  | ⟨0, _⟩ => rfl
  | ⟨1, _⟩ => show (j.val * 256 + k.val) / 256 % 256 = j.val; omega
  | ⟨2, _⟩ => show (j.val * 256 + k.val) % 256 = k.val; omega

theorem bl0_apply (x4 : (⟨S2x256, .f32⟩ : BufTy).Contents (Elt Ideal)) (r : Fin 50000) (j : Fin 256) :
    val_main_v93 (F := Ideal) x4 (ix2 r j) = x4 (ix2 0 j) := by
  rw [val_main_v93_apply, val_main_v92_apply, val_main_v91_apply, val_main_v90_apply]
  refine congrArg x4 (funext fun a => Fin.ext ?_)
  have hj := j.isLt
  match a with
  | ⟨0, _⟩ => rfl
  | ⟨1, _⟩ => show j.val % 256 = j.val; omega

theorem b00_apply (x6 : (⟨S2x256, .f32⟩ : BufTy).Contents (Elt Ideal)) (r : Fin 50000) (j : Fin 256) :
    val_main_v103 (F := Ideal) x6 (ix2 r j) = x6 (ix2 0 j) := by
  rw [val_main_v103_apply, val_main_v102_apply, val_main_v101_apply, val_main_v100_apply]
  refine congrArg x6 (funext fun a => Fin.ext ?_)
  have hj := j.isLt
  match a with
  | ⟨0, _⟩ => rfl
  | ⟨1, _⟩ => show j.val % 256 = j.val; omega

theorem b10_apply (x8 : (⟨S2x256, .f32⟩ : BufTy).Contents (Elt Ideal)) (r : Fin 50000) (j : Fin 256) :
    val_main_v113 (F := Ideal) x8 (ix2 r j) = x8 (ix2 0 j) := by
  rw [val_main_v113_apply, val_main_v112_apply, val_main_v111_apply, val_main_v110_apply]
  refine congrArg x8 (funext fun a => Fin.ext ?_)
  have hj := j.isLt
  match a with
  | ⟨0, _⟩ => rfl
  | ⟨1, _⟩ => show j.val % 256 = j.val; omega

theorem g0_apply (x9 : (⟨S2x256, .f32⟩ : BufTy).Contents (Elt Ideal)) (r : Fin 50000) (j : Fin 256) :
    val_main_v137 (F := Ideal) x9 (ix2 r j) = x9 (ix2 0 j) := by
  rw [val_main_v137_apply, val_main_v136_apply, val_main_v135_apply, val_main_v134_apply]
  refine congrArg x9 (funext fun a => Fin.ext ?_)
  have hj := j.isLt
  match a with
  | ⟨0, _⟩ => rfl
  | ⟨1, _⟩ => show j.val % 256 = j.val; omega

theorem be0_apply (x10 : (⟨S2x256, .f32⟩ : BufTy).Contents (Elt Ideal)) (r : Fin 50000) (j : Fin 256) :
    val_main_v142 (F := Ideal) x10 (ix2 r j) = x10 (ix2 0 j) := by
  rw [val_main_v142_apply, val_main_v141_apply, val_main_v140_apply, val_main_v139_apply]
  refine congrArg x10 (funext fun a => Fin.ext ?_)
  have hj := j.isLt
  match a with
  | ⟨0, _⟩ => rfl
  | ⟨1, _⟩ => show j.val % 256 = j.val; omega

/-! ### The output map's parameters -/

/-- The output weights enter transposed: at (k, o) they are the weights at (o, k). -/
theorem wout_apply (x11 : (⟨S128x256, .f32⟩ : BufTy).Contents (Elt Ideal)) (k : Fin 256) (o : Fin 128) :
    val_main_v144 (F := Ideal) x11 (ix2 k o) = x11 (ix2 o k) := by
  rw [val_main_v144_apply]
  refine congrArg x11 (funext fun a => Fin.ext ?_)
  match a with
  | ⟨0, _⟩ => rfl
  | ⟨1, _⟩ => rfl

/-- The output bias is broadcast over the nodes: at (r, o) it is the bias at o. -/
theorem bout_apply (x12 : (⟨S128, .f32⟩ : BufTy).Contents (Elt Ideal)) (r : Fin 50000) (o : Fin 128) :
    val_main_v147 (F := Ideal) x12 (ix2 r o) = x12 (ix1 o) := by
  rw [val_main_v147_apply, val_main_v146_apply]
  refine congrArg x12 (funext fun a => Fin.ext ?_)
  match a with
  | ⟨0, _⟩ => rfl

end Cert.ReferenceIdeal.RefValue

end
-- ==== Proof.RefAgg.lean ====
import proofs.«105233_j20830591386265_2_alg».proof.Proof.Gen.ReferenceIdeal.Read
import Idealize.ShloMosaic.Lib.ValueIdx

noncomputable section

open Cert.ReferenceIdeal Cert.ReferenceIdeal.Gen Cert.ReferenceIdeal.Read Idealize.ShloMosaic Idealize.ShloMosaic.ValueIdx

namespace Cert.ReferenceIdeal.RefValue

/-- The neighbour aggregation as a whole-array function of the source rows and the edge list: every edge
    (t, s) (row 0 the target, row 1 the source, a negative source index counted from the end) adds source row s
    into row t of an array of zeros. -/
def agg (src : FVec Ideal S50000x256 .f32) (e : (⟨S2x500000, .i32⟩ : BufTy).Contents (Elt Ideal)) :
    FVec Ideal S50000x256 .f32 :=
  Host.scatterAdd scatter_S50000x256_S500000x1_S500000x256_1_0_0_1
    (broadcastInDim S50000x256 ![] bcast_S_S50000x256 (constant S_ .f32 0x00000000#32))
    (broadcastInDim S500000x1 ![0] bcast_S500000_S500000x1_0
      (shapeCast _ (extractStridedSlice S1x500000 ![0, 0] e slices_S2x500000_S1x500000_0_0) shapeCasts_S1x500000_S500000))
    (Host.gather gather_S50000x256_S500000x1_S500000x256_1_0_n_n_0_1_1256 src
      (broadcastInDim S500000x1 ![0] bcast_S500000_S500000x1_0
        (select
          (cmpi .slt
            (shapeCast _ (extractStridedSlice S1x500000 ![1, 0] e slices_S2x500000_S1x500000_1_0) shapeCasts_S1x500000_S500000)
            (broadcastInDim S500000 ![] bcast_S_S500000 (constantI S_ 32 0#32)))
          (addi
            (shapeCast _ (extractStridedSlice S1x500000 ![1, 0] e slices_S2x500000_S1x500000_1_0) shapeCasts_S1x500000_S500000)
            (broadcastInDim S500000 ![] bcast_S_S500000 (constantI S_ 32 50000#32)))
          (shapeCast _ (extractStridedSlice S1x500000 ![1, 0] e slices_S2x500000_S1x500000_1_0) shapeCasts_S1x500000_S500000))))

/-- The first layer's aggregation in the reference is `agg` of the input rows and the second edge list. -/
theorem v13_eq_agg (x0 : FVec Ideal S50000x256 .f32) (x2 : (⟨S2x500000, .i32⟩ : BufTy).Contents (Elt Ideal)) :
    val_main_v13 (F := Ideal) x0 x2 = agg x0 x2 := rfl

/-- The second layer's aggregation in the reference is `agg` of the first layer's rows and the first edge list. -/
theorem v85_eq_agg (x0 : FVec Ideal S50000x256 .f32) (x1 x2 : (⟨S2x500000, .i32⟩ : BufTy).Contents (Elt Ideal)) (x3 : (⟨S2x256x256, .f32⟩ : BufTy).Contents (Elt Ideal)) (x4 : (⟨S2x256, .f32⟩ : BufTy).Contents (Elt Ideal)) (x5 : (⟨S2x256x256, .f32⟩ : BufTy).Contents (Elt Ideal))
    (x6 : (⟨S2x256, .f32⟩ : BufTy).Contents (Elt Ideal)) (x7 : (⟨S2x256x256, .f32⟩ : BufTy).Contents (Elt Ideal)) (x8 x9 x10 : (⟨S2x256, .f32⟩ : BufTy).Contents (Elt Ideal)) :
    val_main_v85 (F := Ideal) x0 x1 x2 x3 x4 x5 x6 x7 x8 x9 x10 = agg (val_main_v71 (F := Ideal) x0 x2 x3 x4 x5 x6 x7 x8 x9 x10) x1 := rfl

end Cert.ReferenceIdeal.RefValue

end
-- ==== Proof.RefLayer1.lean ====
import proofs.«105233_j20830591386265_2_alg».proof.Proof.Gen.ReferenceIdeal.Read
import proofs.«105233_j20830591386265_2_alg».proof.Proof.Spec
import proofs.«105233_j20830591386265_2_alg».proof.Proof.RefParams
import Idealize.ShloMosaic.Lib.ValueIdx
import Idealize.ShloMosaic.PureOps.Ideal.Laws
import Idealize.ShloMosaic.Lib.IdealHost

noncomputable section

open Cert.ReferenceIdeal Cert.ReferenceIdeal.Gen Cert.ReferenceIdeal.Read Idealize.ShloMosaic Idealize.ShloMosaic.ValueIdx

namespace Cert.ReferenceIdeal.RefValue

/-! ## The first layer the reference runs (layer index 1, on the input rows and the second edge list)

Read at node r and feature j, one stage at a time: the three inner products, the pre-activation (the reference adds
its three biases between the products; addition on the extended reals is commutative and associative), the
rectification, the row mean, the centred row, the mean of its squares, the reciprocal root, and the scaled and
shifted result. The sums start from the word 0, which is the extended real zero. -/

variable (x0 : (⟨S50000x256, .f32⟩ : BufTy).Contents (Elt Ideal)) (x2 : (⟨S2x500000, .i32⟩ : BufTy).Contents (Elt Ideal)) (x3 : (⟨S2x256x256, .f32⟩ : BufTy).Contents (Elt Ideal)) (x4 : (⟨S2x256, .f32⟩ : BufTy).Contents (Elt Ideal)) (x5 : (⟨S2x256x256, .f32⟩ : BufTy).Contents (Elt Ideal)) (x6 : (⟨S2x256, .f32⟩ : BufTy).Contents (Elt Ideal)) (x7 : (⟨S2x256x256, .f32⟩ : BufTy).Contents (Elt Ideal)) (x8 x9 x10 : (⟨S2x256, .f32⟩ : BufTy).Contents (Elt Ideal))

theorem l1_dotA (r : Fin 50000) (j : Fin 256) :
    val_main_v17 (F := Ideal) x0 x2 x3 (ix2 r j) = ∑ k : Fin 256, (val_main_v13 (F := Ideal) x0 x2) (ix2 r k) * x3 (ix3 1 j k) := by
  rw [val_main_v17_apply]
  refine Finset.sum_congr rfl fun k _ => ?_
  have el : lidx_main_v17 (ix2 r j) k = ix2 r k := funext fun a => Fin.ext (by match a with | ⟨0, _⟩ => rfl | ⟨1, _⟩ => rfl)
  have er : ridx_main_v17 (ix2 r j) k = ix2 k j := funext fun a => Fin.ext (by match a with | ⟨0, _⟩ => rfl | ⟨1, _⟩ => rfl)
  rw [el, er, wl1_apply]

theorem l1_dotH (r : Fin 50000) (j : Fin 256) :
    val_main_v26 (F := Ideal) x0 x5 (ix2 r j) = ∑ k : Fin 256, (x0) (ix2 r k) * x5 (ix3 1 j k) := by
  rw [val_main_v26_apply]
  refine Finset.sum_congr rfl fun k _ => ?_
  have el : lidx_main_v26 (ix2 r j) k = ix2 r k := funext fun a => Fin.ext (by match a with | ⟨0, _⟩ => rfl | ⟨1, _⟩ => rfl)
  have er : ridx_main_v26 (ix2 r j) k = ix2 k j := funext fun a => Fin.ext (by match a with | ⟨0, _⟩ => rfl | ⟨1, _⟩ => rfl)
  rw [el, er, w01_apply]

theorem l1_dotX (r : Fin 50000) (j : Fin 256) :
    val_main_v36 (F := Ideal) x0 x7 (ix2 r j) = ∑ k : Fin 256, (x0) (ix2 r k) * x7 (ix3 1 j k) := by
  rw [val_main_v36_apply]
  refine Finset.sum_congr rfl fun k _ => ?_
  have el : lidx_main_v36 (ix2 r j) k = ix2 r k := funext fun a => Fin.ext (by match a with | ⟨0, _⟩ => rfl | ⟨1, _⟩ => rfl)
  have er : ridx_main_v36 (ix2 r j) k = ix2 k j := funext fun a => Fin.ext (by match a with | ⟨0, _⟩ => rfl | ⟨1, _⟩ => rfl)
  rw [el, er, w11_apply]

/-- The pre-activation. -/
theorem l1_pre (r : Fin 50000) (j : Fin 256) :
    val_main_v42 (F := Ideal) x0 x2 x3 x4 x5 x6 x7 x8 (ix2 r j) = Cert.GnnSpec.pre (fun k => (val_main_v13 (F := Ideal) x0 x2) (ix2 r k)) (fun k => (x0) (ix2 r k)) (fun k => (x0) (ix2 r k))
      (fun j k => x3 (ix3 1 j k)) (fun j k => x5 (ix3 1 j k)) (fun j k => x7 (ix3 1 j k))
      (fun j => x4 (ix2 1 j)) (fun j => x6 (ix2 1 j)) (fun j => x8 (ix2 1 j)) j := by
  rw [val_main_v42_apply, val_main_v37_apply, val_main_v32_apply, val_main_v27_apply, val_main_v22_apply,
    l1_dotA, l1_dotH, l1_dotX, bl1_apply, b01_apply, b11_apply]
  exact Cert.GnnSpec.pre_arrange _ _ _ _ _ _

/-- The rectified value. -/
theorem l1_relu (r : Fin 50000) (j : Fin 256) :
    val_main_v43 (F := Ideal) x0 x2 x3 x4 x5 x6 x7 x8 (ix2 r j) = Cert.GnnSpec.relu (val_main_v42 (F := Ideal) x0 x2 x3 x4 x5 x6 x7 x8 (ix2 r j)) := by
  rw [val_main_v43_apply, val_main_call0_v0_apply, val_main_call0_cst_apply]
  rfl

/-- The mean of the rectified row. -/
theorem l1_mean (r : Fin 50000) :
    val_main_v47 (F := Ideal) x0 x2 x3 x4 x5 x6 x7 x8 (ix2 r (0 : Fin 1)) = Cert.GnnSpec.mean (fun k : Fin 256 => val_main_v43 (F := Ideal) x0 x2 x3 x4 x5 x6 x7 x8 (ix2 r k)) := by
  rw [val_main_v47_apply, val_main_v46_apply, val_main_cst_2_apply, val_main_v45_apply, val_main_v44_apply, val_main_cst_1_apply]
  show Ideal.div (Ideal.ofBits .f32 0x00000000#32 + ∑ k : Fin 256, val_main_v43 (F := Ideal) x0 x2 x3 x4 x5 x6 x7 x8 (idx_main_v44 (idx_main_v45 (ix2 r (0 : Fin 1))) k)) Cert.GnnSpec.n256
    = Ideal.div (∑ k : Fin 256, val_main_v43 (F := Ideal) x0 x2 x3 x4 x5 x6 x7 x8 (ix2 r k)) Cert.GnnSpec.n256
  rw [Ideal.ofBits_zero_f32, zero_add]
  refine congrArg (fun s => Ideal.div s Cert.GnnSpec.n256) (Finset.sum_congr rfl fun k _ => congrArg _ ?_)
  exact funext fun a => Fin.ext (by match a with | ⟨0, _⟩ => rfl | ⟨1, _⟩ => rfl)

/-- The centred rectified row (the copy that is squared). -/
theorem l1_cenA (r : Fin 50000) (j : Fin 256) :
    val_main_v49 (F := Ideal) x0 x2 x3 x4 x5 x6 x7 x8 (ix2 r j) = Cert.GnnSpec.centered (fun k : Fin 256 => val_main_v43 (F := Ideal) x0 x2 x3 x4 x5 x6 x7 x8 (ix2 r k)) j := by
  have e : idx_main_v48 (ix2 r j) = ix2 r (0 : Fin 1) := funext fun a => Fin.ext (by match a with | ⟨0, _⟩ => rfl | ⟨1, _⟩ => rfl)
  rw [val_main_v49_apply, val_main_v48_apply, e, l1_mean]
  rfl

/-- The centred rectified row (the copy that is scaled). -/
theorem l1_cenB (r : Fin 50000) (j : Fin 256) :
    val_main_v56 (F := Ideal) x0 x2 x3 x4 x5 x6 x7 x8 (ix2 r j) = Cert.GnnSpec.centered (fun k : Fin 256 => val_main_v43 (F := Ideal) x0 x2 x3 x4 x5 x6 x7 x8 (ix2 r k)) j := by
  have e : idx_main_v55 (ix2 r j) = ix2 r (0 : Fin 1) := funext fun a => Fin.ext (by match a with | ⟨0, _⟩ => rfl | ⟨1, _⟩ => rfl)
  rw [val_main_v56_apply, val_main_v55_apply, e, l1_mean]
  rfl

/-- The mean of the squared deviations. -/
theorem l1_var (r : Fin 50000) :
    val_main_v54 (F := Ideal) x0 x2 x3 x4 x5 x6 x7 x8 (ix2 r (0 : Fin 1))
      = Cert.GnnSpec.mean (fun k : Fin 256 => Cert.GnnSpec.centered (fun k : Fin 256 => val_main_v43 (F := Ideal) x0 x2 x3 x4 x5 x6 x7 x8 (ix2 r k)) k * Cert.GnnSpec.centered (fun k : Fin 256 => val_main_v43 (F := Ideal) x0 x2 x3 x4 x5 x6 x7 x8 (ix2 r k)) k) := by
  rw [val_main_v54_apply, val_main_v53_apply, val_main_cst_4_apply, val_main_v52_apply, val_main_v51_apply, val_main_cst_3_apply]
  show Ideal.div (Ideal.ofBits .f32 0x00000000#32 + ∑ k : Fin 256, val_main_v50 (F := Ideal) x0 x2 x3 x4 x5 x6 x7 x8 (idx_main_v51 (idx_main_v52 (ix2 r (0 : Fin 1))) k)) Cert.GnnSpec.n256
    = Ideal.div (∑ k : Fin 256, Cert.GnnSpec.centered (fun k : Fin 256 => val_main_v43 (F := Ideal) x0 x2 x3 x4 x5 x6 x7 x8 (ix2 r k)) k * Cert.GnnSpec.centered (fun k : Fin 256 => val_main_v43 (F := Ideal) x0 x2 x3 x4 x5 x6 x7 x8 (ix2 r k)) k) Cert.GnnSpec.n256
  rw [Ideal.ofBits_zero_f32, zero_add]
  refine congrArg (fun s => Ideal.div s Cert.GnnSpec.n256) (Finset.sum_congr rfl fun k _ => ?_)
  have e : idx_main_v51 (idx_main_v52 (ix2 r (0 : Fin 1))) k = ix2 r k := funext fun a => Fin.ext (by match a with | ⟨0, _⟩ => rfl | ⟨1, _⟩ => rfl)
  rw [e, val_main_v50_apply, l1_cenA]
  rfl

/-- The reciprocal root of the variance plus ε. -/
theorem l1_rs (r : Fin 50000) :
    val_main_v59 (F := Ideal) x0 x2 x3 x4 x5 x6 x7 x8 (ix2 r (0 : Fin 1))
      = Ideal.rsqrt (Cert.GnnSpec.mean (fun k : Fin 256 => Cert.GnnSpec.centered (fun k : Fin 256 => val_main_v43 (F := Ideal) x0 x2 x3 x4 x5 x6 x7 x8 (ix2 r k)) k * Cert.GnnSpec.centered (fun k : Fin 256 => val_main_v43 (F := Ideal) x0 x2 x3 x4 x5 x6 x7 x8 (ix2 r k)) k) + Cert.GnnSpec.epsW) := by
  rw [val_main_v59_apply, val_main_v58_apply, l1_var, val_main_v57_apply, val_main_cst_5_apply]
  rfl

/-- The normalised rectified row, in terms of the pre-activations of the row. -/
theorem l1_norm (r : Fin 50000) (j : Fin 256) :
    val_main_v71 (F := Ideal) x0 x2 x3 x4 x5 x6 x7 x8 x9 x10 (ix2 r j)
      = Cert.GnnSpec.normRow (fun k : Fin 256 => val_main_v42 (F := Ideal) x0 x2 x3 x4 x5 x6 x7 x8 (ix2 r k)) (fun j => x9 (ix2 1 j)) (fun j => x10 (ix2 1 j)) j := by
  have e : idx_main_v60 (ix2 r j) = ix2 r (0 : Fin 1) := funext fun a => Fin.ext (by match a with | ⟨0, _⟩ => rfl | ⟨1, _⟩ => rfl)
  have hY : (fun k : Fin 256 => val_main_v43 (F := Ideal) x0 x2 x3 x4 x5 x6 x7 x8 (ix2 r k)) = fun k : Fin 256 => Cert.GnnSpec.relu (val_main_v42 (F := Ideal) x0 x2 x3 x4 x5 x6 x7 x8 (ix2 r k)) := funext fun k => l1_relu x0 x2 x3 x4 x5 x6 x7 x8 r k
  rw [val_main_v71_apply, val_main_v66_apply, val_main_v61_apply, l1_cenB, val_main_v60_apply, e, l1_rs, g1_apply, be1_apply, hY]
  rfl

/-- The layer at node r and feature j is the specification's. -/
theorem l1_layerAt (r : Fin 50000) (j : Fin 256) :
    val_main_v71 (F := Ideal) x0 x2 x3 x4 x5 x6 x7 x8 x9 x10 (ix2 r j)
      = Cert.GnnSpec.layerAt (val_main_v13 (F := Ideal) x0 x2) (x0) (x0) x3 x5 x7 x4 x6 x8 x9 x10 1 r j := by
  have hZ : (fun k : Fin 256 => val_main_v42 (F := Ideal) x0 x2 x3 x4 x5 x6 x7 x8 (ix2 r k)) = Cert.GnnSpec.pre (fun k => (val_main_v13 (F := Ideal) x0 x2) (ix2 r k)) (fun k => (x0) (ix2 r k)) (fun k => (x0) (ix2 r k))
      (fun j k => x3 (ix3 1 j k)) (fun j k => x5 (ix3 1 j k)) (fun j k => x7 (ix3 1 j k))
      (fun j => x4 (ix2 1 j)) (fun j => x6 (ix2 1 j)) (fun j => x8 (ix2 1 j)) := funext fun k => l1_pre x0 x2 x3 x4 x5 x6 x7 x8 r k
  rw [l1_norm, hZ]
  rfl

end Cert.ReferenceIdeal.RefValue

end
-- ==== Proof.RefLayer0.lean ====
import proofs.«105233_j20830591386265_2_alg».proof.Proof.Gen.ReferenceIdeal.Read
import proofs.«105233_j20830591386265_2_alg».proof.Proof.Spec
import proofs.«105233_j20830591386265_2_alg».proof.Proof.RefParams
import Idealize.ShloMosaic.Lib.ValueIdx
import Idealize.ShloMosaic.PureOps.Ideal.Laws
import Idealize.ShloMosaic.Lib.IdealHost

noncomputable section

open Cert.ReferenceIdeal Cert.ReferenceIdeal.Gen Cert.ReferenceIdeal.Read Idealize.ShloMosaic Idealize.ShloMosaic.ValueIdx

namespace Cert.ReferenceIdeal.RefValue

/-! ## The second layer the reference runs (layer index 0, on the first layer's rows, the input rows and the first edge list)

Read at node r and feature j, one stage at a time: the three inner products, the pre-activation (the reference adds
its three biases between the products; addition on the extended reals is commutative and associative), the
rectification, the row mean, the centred row, the mean of its squares, the reciprocal root, and the scaled and
shifted result. The sums start from the word 0, which is the extended real zero. -/

variable (x0 : (⟨S50000x256, .f32⟩ : BufTy).Contents (Elt Ideal)) (x1 x2 : (⟨S2x500000, .i32⟩ : BufTy).Contents (Elt Ideal)) (x3 : (⟨S2x256x256, .f32⟩ : BufTy).Contents (Elt Ideal)) (x4 : (⟨S2x256, .f32⟩ : BufTy).Contents (Elt Ideal)) (x5 : (⟨S2x256x256, .f32⟩ : BufTy).Contents (Elt Ideal)) (x6 : (⟨S2x256, .f32⟩ : BufTy).Contents (Elt Ideal)) (x7 : (⟨S2x256x256, .f32⟩ : BufTy).Contents (Elt Ideal)) (x8 x9 x10 : (⟨S2x256, .f32⟩ : BufTy).Contents (Elt Ideal))

theorem l0_dotA (r : Fin 50000) (j : Fin 256) :
    val_main_v89 (F := Ideal) x0 x1 x2 x3 x4 x5 x6 x7 x8 x9 x10 (ix2 r j) = ∑ k : Fin 256, (val_main_v85 (F := Ideal) x0 x1 x2 x3 x4 x5 x6 x7 x8 x9 x10) (ix2 r k) * x3 (ix3 0 j k) := by
  rw [val_main_v89_apply]
  refine Finset.sum_congr rfl fun k _ => ?_
  have el : lidx_main_v89 (ix2 r j) k = ix2 r k := funext fun a => Fin.ext (by match a with | ⟨0, _⟩ => rfl | ⟨1, _⟩ => rfl)
  have er : ridx_main_v89 (ix2 r j) k = ix2 k j := funext fun a => Fin.ext (by match a with | ⟨0, _⟩ => rfl | ⟨1, _⟩ => rfl)
  rw [el, er, wl0_apply]

theorem l0_dotH (r : Fin 50000) (j : Fin 256) :
    val_main_v98 (F := Ideal) x0 x2 x3 x4 x5 x6 x7 x8 x9 x10 (ix2 r j) = ∑ k : Fin 256, (val_main_v71 (F := Ideal) x0 x2 x3 x4 x5 x6 x7 x8 x9 x10) (ix2 r k) * x5 (ix3 0 j k) := by
  rw [val_main_v98_apply]
  refine Finset.sum_congr rfl fun k _ => ?_
  have el : lidx_main_v98 (ix2 r j) k = ix2 r k := funext fun a => Fin.ext (by match a with | ⟨0, _⟩ => rfl | ⟨1, _⟩ => rfl)
  have er : ridx_main_v98 (ix2 r j) k = ix2 k j := funext fun a => Fin.ext (by match a with | ⟨0, _⟩ => rfl | ⟨1, _⟩ => rfl)
  rw [el, er, w00_apply]

theorem l0_dotX (r : Fin 50000) (j : Fin 256) :
    val_main_v108 (F := Ideal) x0 x7 (ix2 r j) = ∑ k : Fin 256, (x0) (ix2 r k) * x7 (ix3 0 j k) := by
  rw [val_main_v108_apply]
  refine Finset.sum_congr rfl fun k _ => ?_
  have el : lidx_main_v108 (ix2 r j) k = ix2 r k := funext fun a => Fin.ext (by match a with | ⟨0, _⟩ => rfl | ⟨1, _⟩ => rfl)
  have er : ridx_main_v108 (ix2 r j) k = ix2 k j := funext fun a => Fin.ext (by match a with | ⟨0, _⟩ => rfl | ⟨1, _⟩ => rfl)
  rw [el, er, w10_apply]

/-- The pre-activation. -/
theorem l0_pre (r : Fin 50000) (j : Fin 256) :
    val_main_v114 (F := Ideal) x0 x1 x2 x3 x4 x5 x6 x7 x8 x9 x10 (ix2 r j) = Cert.GnnSpec.pre (fun k => (val_main_v85 (F := Ideal) x0 x1 x2 x3 x4 x5 x6 x7 x8 x9 x10) (ix2 r k)) (fun k => (val_main_v71 (F := Ideal) x0 x2 x3 x4 x5 x6 x7 x8 x9 x10) (ix2 r k)) (fun k => (x0) (ix2 r k))
      (fun j k => x3 (ix3 0 j k)) (fun j k => x5 (ix3 0 j k)) (fun j k => x7 (ix3 0 j k))
      (fun j => x4 (ix2 0 j)) (fun j => x6 (ix2 0 j)) (fun j => x8 (ix2 0 j)) j := by
  rw [val_main_v114_apply, val_main_v109_apply, val_main_v104_apply, val_main_v99_apply, val_main_v94_apply,
    l0_dotA, l0_dotH, l0_dotX, bl0_apply, b00_apply, b10_apply]
  exact Cert.GnnSpec.pre_arrange _ _ _ _ _ _

/-- The rectified value. -/
theorem l0_relu (r : Fin 50000) (j : Fin 256) :
    val_main_v115 (F := Ideal) x0 x1 x2 x3 x4 x5 x6 x7 x8 x9 x10 (ix2 r j) = Cert.GnnSpec.relu (val_main_v114 (F := Ideal) x0 x1 x2 x3 x4 x5 x6 x7 x8 x9 x10 (ix2 r j)) := by
  rw [val_main_v115_apply, val_main_call1_v0_apply, val_main_call1_cst_apply]
  rfl

/-- The mean of the rectified row. -/
theorem l0_mean (r : Fin 50000) :
    val_main_v119 (F := Ideal) x0 x1 x2 x3 x4 x5 x6 x7 x8 x9 x10 (ix2 r (0 : Fin 1)) = Cert.GnnSpec.mean (fun k : Fin 256 => val_main_v115 (F := Ideal) x0 x1 x2 x3 x4 x5 x6 x7 x8 x9 x10 (ix2 r k)) := by
  rw [val_main_v119_apply, val_main_v118_apply, val_main_cst_10_apply, val_main_v117_apply, val_main_v116_apply, val_main_cst_9_apply]
  show Ideal.div (Ideal.ofBits .f32 0x00000000#32 + ∑ k : Fin 256, val_main_v115 (F := Ideal) x0 x1 x2 x3 x4 x5 x6 x7 x8 x9 x10 (idx_main_v116 (idx_main_v117 (ix2 r (0 : Fin 1))) k)) Cert.GnnSpec.n256
    = Ideal.div (∑ k : Fin 256, val_main_v115 (F := Ideal) x0 x1 x2 x3 x4 x5 x6 x7 x8 x9 x10 (ix2 r k)) Cert.GnnSpec.n256
  rw [Ideal.ofBits_zero_f32, zero_add]
  refine congrArg (fun s => Ideal.div s Cert.GnnSpec.n256) (Finset.sum_congr rfl fun k _ => congrArg _ ?_)
  exact funext fun a => Fin.ext (by match a with | ⟨0, _⟩ => rfl | ⟨1, _⟩ => rfl)

/-- The centred rectified row (the copy that is squared). -/
theorem l0_cenA (r : Fin 50000) (j : Fin 256) :
    val_main_v121 (F := Ideal) x0 x1 x2 x3 x4 x5 x6 x7 x8 x9 x10 (ix2 r j) = Cert.GnnSpec.centered (fun k : Fin 256 => val_main_v115 (F := Ideal) x0 x1 x2 x3 x4 x5 x6 x7 x8 x9 x10 (ix2 r k)) j := by
  have e : idx_main_v120 (ix2 r j) = ix2 r (0 : Fin 1) := funext fun a => Fin.ext (by match a with | ⟨0, _⟩ => rfl | ⟨1, _⟩ => rfl)
  rw [val_main_v121_apply, val_main_v120_apply, e, l0_mean]
  rfl

/-- The centred rectified row (the copy that is scaled). -/
theorem l0_cenB (r : Fin 50000) (j : Fin 256) :
    val_main_v128 (F := Ideal) x0 x1 x2 x3 x4 x5 x6 x7 x8 x9 x10 (ix2 r j) = Cert.GnnSpec.centered (fun k : Fin 256 => val_main_v115 (F := Ideal) x0 x1 x2 x3 x4 x5 x6 x7 x8 x9 x10 (ix2 r k)) j := by
  have e : idx_main_v127 (ix2 r j) = ix2 r (0 : Fin 1) := funext fun a => Fin.ext (by match a with | ⟨0, _⟩ => rfl | ⟨1, _⟩ => rfl)
  rw [val_main_v128_apply, val_main_v127_apply, e, l0_mean]
  rfl

/-- The mean of the squared deviations. -/
theorem l0_var (r : Fin 50000) :
    val_main_v126 (F := Ideal) x0 x1 x2 x3 x4 x5 x6 x7 x8 x9 x10 (ix2 r (0 : Fin 1))
      = Cert.GnnSpec.mean (fun k : Fin 256 => Cert.GnnSpec.centered (fun k : Fin 256 => val_main_v115 (F := Ideal) x0 x1 x2 x3 x4 x5 x6 x7 x8 x9 x10 (ix2 r k)) k * Cert.GnnSpec.centered (fun k : Fin 256 => val_main_v115 (F := Ideal) x0 x1 x2 x3 x4 x5 x6 x7 x8 x9 x10 (ix2 r k)) k) := by
  rw [val_main_v126_apply, val_main_v125_apply, val_main_cst_12_apply, val_main_v124_apply, val_main_v123_apply, val_main_cst_11_apply]
  show Ideal.div (Ideal.ofBits .f32 0x00000000#32 + ∑ k : Fin 256, val_main_v122 (F := Ideal) x0 x1 x2 x3 x4 x5 x6 x7 x8 x9 x10 (idx_main_v123 (idx_main_v124 (ix2 r (0 : Fin 1))) k)) Cert.GnnSpec.n256
    = Ideal.div (∑ k : Fin 256, Cert.GnnSpec.centered (fun k : Fin 256 => val_main_v115 (F := Ideal) x0 x1 x2 x3 x4 x5 x6 x7 x8 x9 x10 (ix2 r k)) k * Cert.GnnSpec.centered (fun k : Fin 256 => val_main_v115 (F := Ideal) x0 x1 x2 x3 x4 x5 x6 x7 x8 x9 x10 (ix2 r k)) k) Cert.GnnSpec.n256
  rw [Ideal.ofBits_zero_f32, zero_add]
  refine congrArg (fun s => Ideal.div s Cert.GnnSpec.n256) (Finset.sum_congr rfl fun k _ => ?_)
  have e : idx_main_v123 (idx_main_v124 (ix2 r (0 : Fin 1))) k = ix2 r k := funext fun a => Fin.ext (by match a with | ⟨0, _⟩ => rfl | ⟨1, _⟩ => rfl)
  rw [e, val_main_v122_apply, l0_cenA]
  rfl

/-- The reciprocal root of the variance plus ε. -/
theorem l0_rs (r : Fin 50000) :
    val_main_v131 (F := Ideal) x0 x1 x2 x3 x4 x5 x6 x7 x8 x9 x10 (ix2 r (0 : Fin 1))
      = Ideal.rsqrt (Cert.GnnSpec.mean (fun k : Fin 256 => Cert.GnnSpec.centered (fun k : Fin 256 => val_main_v115 (F := Ideal) x0 x1 x2 x3 x4 x5 x6 x7 x8 x9 x10 (ix2 r k)) k * Cert.GnnSpec.centered (fun k : Fin 256 => val_main_v115 (F := Ideal) x0 x1 x2 x3 x4 x5 x6 x7 x8 x9 x10 (ix2 r k)) k) + Cert.GnnSpec.epsW) := by
  rw [val_main_v131_apply, val_main_v130_apply, l0_var, val_main_v129_apply, val_main_cst_13_apply]
  rfl

/-- The normalised rectified row, in terms of the pre-activations of the row. -/
theorem l0_norm (r : Fin 50000) (j : Fin 256) :
    val_main_v143 (F := Ideal) x0 x1 x2 x3 x4 x5 x6 x7 x8 x9 x10 (ix2 r j)
      = Cert.GnnSpec.normRow (fun k : Fin 256 => val_main_v114 (F := Ideal) x0 x1 x2 x3 x4 x5 x6 x7 x8 x9 x10 (ix2 r k)) (fun j => x9 (ix2 0 j)) (fun j => x10 (ix2 0 j)) j := by
  have e : idx_main_v132 (ix2 r j) = ix2 r (0 : Fin 1) := funext fun a => Fin.ext (by match a with | ⟨0, _⟩ => rfl | ⟨1, _⟩ => rfl)
  have hY : (fun k : Fin 256 => val_main_v115 (F := Ideal) x0 x1 x2 x3 x4 x5 x6 x7 x8 x9 x10 (ix2 r k)) = fun k : Fin 256 => Cert.GnnSpec.relu (val_main_v114 (F := Ideal) x0 x1 x2 x3 x4 x5 x6 x7 x8 x9 x10 (ix2 r k)) := funext fun k => l0_relu x0 x1 x2 x3 x4 x5 x6 x7 x8 x9 x10 r k
  rw [val_main_v143_apply, val_main_v138_apply, val_main_v133_apply, l0_cenB, val_main_v132_apply, e, l0_rs, g0_apply, be0_apply, hY]
  rfl

/-- The layer at node r and feature j is the specification's. -/
theorem l0_layerAt (r : Fin 50000) (j : Fin 256) :
    val_main_v143 (F := Ideal) x0 x1 x2 x3 x4 x5 x6 x7 x8 x9 x10 (ix2 r j)
      = Cert.GnnSpec.layerAt (val_main_v85 (F := Ideal) x0 x1 x2 x3 x4 x5 x6 x7 x8 x9 x10) (val_main_v71 (F := Ideal) x0 x2 x3 x4 x5 x6 x7 x8 x9 x10) (x0) x3 x5 x7 x4 x6 x8 x9 x10 0 r j := by
  have hZ : (fun k : Fin 256 => val_main_v114 (F := Ideal) x0 x1 x2 x3 x4 x5 x6 x7 x8 x9 x10 (ix2 r k)) = Cert.GnnSpec.pre (fun k => (val_main_v85 (F := Ideal) x0 x1 x2 x3 x4 x5 x6 x7 x8 x9 x10) (ix2 r k)) (fun k => (val_main_v71 (F := Ideal) x0 x2 x3 x4 x5 x6 x7 x8 x9 x10) (ix2 r k)) (fun k => (x0) (ix2 r k))
      (fun j k => x3 (ix3 0 j k)) (fun j k => x5 (ix3 0 j k)) (fun j k => x7 (ix3 0 j k))
      (fun j => x4 (ix2 0 j)) (fun j => x6 (ix2 0 j)) (fun j => x8 (ix2 0 j)) := funext fun k => l0_pre x0 x1 x2 x3 x4 x5 x6 x7 x8 x9 x10 r k
  rw [l0_norm, hZ]
  rfl

end Cert.ReferenceIdeal.RefValue

end
-- ==== Proof.RefValue.lean ====
import proofs.«105233_j20830591386265_2_alg».proof.Proof.Gen.ReferenceIdeal.Read
import proofs.«105233_j20830591386265_2_alg».proof.Proof.Spec
import proofs.«105233_j20830591386265_2_alg».proof.Proof.RefParams
import proofs.«105233_j20830591386265_2_alg».proof.Proof.RefAgg
import proofs.«105233_j20830591386265_2_alg».proof.Proof.RefLayer1
import proofs.«105233_j20830591386265_2_alg».proof.Proof.RefLayer0
import Idealize.ShloMosaic.Lib.ValueIdx
import Idealize.ShloMosaic.PureOps.Ideal.Laws
import Idealize.ShloMosaic.Lib.IdealHost

noncomputable section

open Cert.ReferenceIdeal Cert.ReferenceIdeal.Gen Cert.ReferenceIdeal.Read Idealize.ShloMosaic Idealize.ShloMosaic.ValueIdx

namespace Cert.ReferenceIdeal.RefValue

/-! ## The reference's result is the specification's

The first layer's rows are the specification's layer 1 of the aggregated input rows; the second layer's rows are the
specification's layer 0 of the aggregated first-layer rows, the first-layer rows and the input rows; the result is the
output map of the second layer's rows. -/

variable (x0 : FVec Ideal S50000x256 .f32) (x1 x2 : (⟨S2x500000, .i32⟩ : BufTy).Contents (Elt Ideal)) (x3 : (⟨S2x256x256, .f32⟩ : BufTy).Contents (Elt Ideal)) (x4 : (⟨S2x256, .f32⟩ : BufTy).Contents (Elt Ideal)) (x5 : (⟨S2x256x256, .f32⟩ : BufTy).Contents (Elt Ideal))
  (x6 : (⟨S2x256, .f32⟩ : BufTy).Contents (Elt Ideal)) (x7 : (⟨S2x256x256, .f32⟩ : BufTy).Contents (Elt Ideal)) (x8 x9 x10 : (⟨S2x256, .f32⟩ : BufTy).Contents (Elt Ideal))
  (x11 : (⟨S128x256, .f32⟩ : BufTy).Contents (Elt Ideal)) (x12 : (⟨S128, .f32⟩ : BufTy).Contents (Elt Ideal))

/-- The first layer's rows, as a whole array. -/
theorem layer1_eq :
    val_main_v71 (F := Ideal) x0 x2 x3 x4 x5 x6 x7 x8 x9 x10 = Cert.GnnSpec.layer (agg x0 x2) x0 x0 x3 x5 x7 x4 x6 x8 x9 x10 1 := by
  funext i
  obtain ⟨r, j, rfl⟩ : ∃ (r : Fin 50000) (j : Fin 256), i = ix2 r j := ⟨i 0, i 1, eq_ix2 i⟩
  rw [l1_layerAt, v13_eq_agg]
  rfl

/-- The second layer's rows, as a whole array. -/
theorem layer0_eq :
    val_main_v143 (F := Ideal) x0 x1 x2 x3 x4 x5 x6 x7 x8 x9 x10
      = Cert.GnnSpec.layer (agg (Cert.GnnSpec.layer (agg x0 x2) x0 x0 x3 x5 x7 x4 x6 x8 x9 x10 1) x1) (Cert.GnnSpec.layer (agg x0 x2) x0 x0 x3 x5 x7 x4 x6 x8 x9 x10 1) x0 x3 x5 x7 x4 x6 x8 x9 x10 0 := by
  funext i
  obtain ⟨r, j, rfl⟩ : ∃ (r : Fin 50000) (j : Fin 256), i = ix2 r j := ⟨i 0, i 1, eq_ix2 i⟩
  rw [l0_layerAt, v85_eq_agg, layer1_eq]
  rfl

/-- The reference's result, as a whole array. -/
theorem result_eq :
    val_main_v148 (F := Ideal) x0 x1 x2 x3 x4 x5 x6 x7 x8 x9 x10 x11 x12
      = Cert.GnnSpec.proj (Cert.GnnSpec.layer (agg (Cert.GnnSpec.layer (agg x0 x2) x0 x0 x3 x5 x7 x4 x6 x8 x9 x10 1) x1) (Cert.GnnSpec.layer (agg x0 x2) x0 x0 x3 x5 x7 x4 x6 x8 x9 x10 1) x0 x3 x5 x7 x4 x6 x8 x9 x10 0) x11 x12 := by
  funext i
  obtain ⟨r, o, rfl⟩ : ∃ (r : Fin 50000) (o : Fin 128), i = ix2 r o := ⟨i 0, i 1, eq_ix2 i⟩
  rw [val_main_v148_apply, val_main_v145_apply, bout_apply, layer0_eq]
  show (∑ k : Fin 256, (Cert.GnnSpec.layer (agg (Cert.GnnSpec.layer (agg x0 x2) x0 x0 x3 x5 x7 x4 x6 x8 x9 x10 1) x1) (Cert.GnnSpec.layer (agg x0 x2) x0 x0 x3 x5 x7 x4 x6 x8 x9 x10 1) x0 x3 x5 x7 x4 x6 x8 x9 x10 0) (lidx_main_v145 (ix2 r o) k)
        * val_main_v144 (F := Ideal) x11 (ridx_main_v145 (ix2 r o) k)) + x12 (ix1 o)
    = (∑ k : Fin 256, (Cert.GnnSpec.layer (agg (Cert.GnnSpec.layer (agg x0 x2) x0 x0 x3 x5 x7 x4 x6 x8 x9 x10 1) x1) (Cert.GnnSpec.layer (agg x0 x2) x0 x0 x3 x5 x7 x4 x6 x8 x9 x10 1) x0 x3 x5 x7 x4 x6 x8 x9 x10 0) (ix2 r k) * x11 (ix2 o k)) + x12 (ix1 o)
  refine congrArg (fun s => s + x12 (ix1 o)) (Finset.sum_congr rfl fun k _ => ?_)
  have el : lidx_main_v145 (ix2 r o) k = ix2 r k := funext fun a => Fin.ext (by match a with | ⟨0, _⟩ => rfl | ⟨1, _⟩ => rfl)
  have er : ridx_main_v145 (ix2 r o) k = ix2 k o := funext fun a => Fin.ext (by match a with | ⟨0, _⟩ => rfl | ⟨1, _⟩ => rfl)
  rw [el, er, wout_apply]

end Cert.ReferenceIdeal.RefValue

end
-- ==== Proof.EdgeDomain.lean ====
/-
  What the precondition says about the two edge arrays. An edge array is [2, 500000] signed 32-bit words; its
  row 0 holds, for every edge, the node the edge's message is ADDED INTO. The precondition's last two conjuncts
  say that every word of row 0 of either edge array is at least zero. On such a row the "wrap a negative index
  round by adding the number of nodes" step — select (w < 0) (w + 50000) w — changes nothing.
-/
import proofs.«105233_j20830591386265_2_alg».proof.Pre_finite_inputs
import Idealize.ShloMosaic.Lib.ReduceAll
import Idealize.ShloMosaic.Lib.Affine

noncomputable section

namespace Cert.EdgeDomain

open Idealize.ShloMosaic

/-- Row 0 of an edge array as a vector of 500000 words: the slice [0:1, 0:500000] reshaped to rank one. -/
def scatterRow (e : IVec ⟨2, ![2, 500000]⟩ 32)
    (hs : (⟨2, ![2, 500000]⟩ : Shape).Slices ![0, 0] ⟨2, ![1, 500000]⟩)
    (hc : (⟨2, ![1, 500000]⟩ : Shape).ShapeCasts ⟨1, ![500000]⟩) : IVec ⟨1, ![500000]⟩ 32 :=
  shapeCast ⟨1, ![500000]⟩ (extractStridedSlice ⟨2, ![1, 500000]⟩ ![0, 0] e hs) hc

/-- A word that is at least zero (signed) is not below zero. -/
theorem slt_zero_of_sge_zero (w : BitVec 32) (h : IntOp.cmpi .sge w 0#32 = 1#1) : IntOp.cmpi .slt w 0#32 = 0#1 := by
  have h' : (0#32 : BitVec 32).toInt ≤ w.toInt := IntOp.cmpi_sge.mp h
  have hn : ¬ (IntOp.cmpi .slt w 0#32 = 1#1) := fun c => absurd (IntOp.cmpi_slt.mp c) (not_lt.mpr h')
  revert hn
  generalize IntOp.cmpi .slt w 0#32 = b
  revert b
  decide

/-- On a vector of words that are all at least zero, wrapping the negative ones round changes nothing. -/
theorem wrap_id {s : Shape} (idx : IVec s 32) (zero n : IVec s 32) (hz : ∀ i, zero i = 0#32)
    (h : ∀ i, IntOp.cmpi .sge (idx i) 0#32 = 1#1) :
    select (cmpi .slt idx zero) (addi idx n) idx = idx := by
  funext i
  show Scalar.select (IntOp.cmpi .slt (idx i) (zero i)) (IntOp.addi (idx i) (n i)) (idx i) = idx i
  rw [hz i, slt_zero_of_sge_zero _ (h i)]
  rfl

instance : Subsingleton (⟨0, ![]⟩ : Shape).Idx := ⟨fun a b => funext fun d => d.elim0⟩

open Cert.Pre_finite_inputs Cert.Pre_finite_inputs.Facts in
/-- The precondition gives: every word of row 0 of the first edge array, and of the second, is at least zero. -/
theorem rows_nonneg [Cert.Pre_finite_inputs.Facts] {F : FTy → Type} [FloatOps F]
    (a0 : FVec F S50000x256 .f32) (a1 a2 : IVec S2x500000 32) (a3 : FVec F S2x256x256 .f32) (a4 : FVec F S2x256 .f32)
    (a5 : FVec F S2x256x256 .f32) (a6 : FVec F S2x256 .f32) (a7 : FVec F S2x256x256 .f32) (a8 a9 a10 : FVec F S2x256 .f32)
    (a11 : FVec F S128x256 .f32) (a12 : FVec F S128 .f32)
    (h : fn (F := F) a0 a1 a2 a3 a4 a5 a6 a7 a8 a9 a10 a11 a12 = fun _ => 1#1) :
    (∀ i, IntOp.cmpi .sge (scatterRow a1 slices_S2x500000_S1x500000_0_0 shapeCasts_S1x500000_S500000 i) 0#32 = 1#1)
    ∧ (∀ i, IntOp.cmpi .sge (scatterRow a2 slices_S2x500000_S1x500000_0_0 shapeCasts_S1x500000_S500000 i) 0#32 = 1#1) := by
  have e := congrFun h (fun d => d.elim0)
  unfold fn fn_part1 fn_part2 fn_part3 at e
  dsimp only at e
  simp only [andi] at e
  rw [IntOp.andi_eq_one, IntOp.andi_eq_one] at e
  obtain ⟨⟨-, h1⟩, h2⟩ := e
  exact ⟨fun i => Host.reduce_andi_all _ _ _ _ _ h1 i, fun i => Host.reduce_andi_all _ _ _ _ _ h2 i⟩

end Cert.EdgeDomain

end
-- ==== Proof.AggBridge.lean ====
import proofs.«105233_j20830591386265_2_alg».proof.Proof.KHost1
import proofs.«105233_j20830591386265_2_alg».proof.Proof.RefAgg
import proofs.«105233_j20830591386265_2_alg».proof.Proof.EdgeDomain

set_option maxRecDepth 16384

noncomputable section

namespace Cert.AggBridge

open Idealize.ShloMosaic

/-! ## The two programs aggregate alike

Both programs start from zeros and, for every edge, add the source's row into the target's row. The reference wraps
a negative index round by the node count only on the row it gathers from; the other program wraps both rows. On a row
of target indices that are all at least zero the wrap changes nothing, so the two aggregations are the same function
of the source rows and the edge array. Gathering in the narrow float format and widening afterwards changes nothing
either: on the extended reals the widening is the identity. -/

/-- On target indices that are all at least zero, wrapping them changes nothing. -/
theorem wrap_scatterRow (e : IVec ⟨2, ![2, 500000]⟩ 32)
    (hs : (⟨2, ![2, 500000]⟩ : Shape).Slices ![0, 0] ⟨2, ![1, 500000]⟩)
    (hc : (⟨2, ![1, 500000]⟩ : Shape).ShapeCasts ⟨1, ![500000]⟩)
    (h : ∀ i, IntOp.cmpi .sge (Cert.EdgeDomain.scatterRow e hs hc i) 0#32 = 1#1) :
    Cert.KernelIdeal.KValue.wrap (Cert.EdgeDomain.scatterRow e hs hc) = Cert.EdgeDomain.scatterRow e hs hc := by
  unfold Cert.KernelIdeal.KValue.wrap
  exact Cert.EdgeDomain.wrap_id _ _ _ (fun _ => rfl) h

/-- The wide aggregation of the two programs agree. -/
theorem agg_eq (src : FVec Ideal ⟨2, ![50000, 256]⟩ .f32) (e : IVec ⟨2, ![2, 500000]⟩ 32)
    (hs : (⟨2, ![2, 500000]⟩ : Shape).Slices ![0, 0] ⟨2, ![1, 500000]⟩)
    (hc : (⟨2, ![1, 500000]⟩ : Shape).ShapeCasts ⟨1, ![500000]⟩)
    (h : ∀ i, IntOp.cmpi .sge (Cert.EdgeDomain.scatterRow e hs hc i) 0#32 = 1#1) :
    Cert.KernelIdeal.KValue.agg src e = Cert.ReferenceIdeal.RefValue.agg src e := by
  have hw := wrap_scatterRow e hs hc h
  unfold Cert.EdgeDomain.scatterRow at hw
  unfold Cert.KernelIdeal.KValue.agg
  rw [hw]
  rfl

/-- The narrow-format aggregation, widened, is the reference's aggregation of the same rows. -/
theorem aggNarrow_eq (src : FVec Ideal ⟨2, ![50000, 256]⟩ .bf16) (e : IVec ⟨2, ![2, 500000]⟩ 32)
    (hs : (⟨2, ![2, 500000]⟩ : Shape).Slices ![0, 0] ⟨2, ![1, 500000]⟩)
    (hc : (⟨2, ![1, 500000]⟩ : Shape).ShapeCasts ⟨1, ![500000]⟩)
    (h : ∀ i, IntOp.cmpi .sge (Cert.EdgeDomain.scatterRow e hs hc i) 0#32 = 1#1) :
    Cert.KernelIdeal.KValue.aggNarrow src e = Cert.ReferenceIdeal.RefValue.agg src e := by
  have hw := wrap_scatterRow e hs hc h
  unfold Cert.EdgeDomain.scatterRow at hw
  unfold Cert.KernelIdeal.KValue.aggNarrow
  rw [hw]
  rfl

end Cert.AggBridge

end
-- ==== Proof.lean ====
/-
  Two layers of a graph network and an output map, computed two ways, are one function of the inputs.

  The network: every node carries a row of 256 features. A layer aggregates, for every edge (s, d) of its edge
  array, the row of node d into node s (a sum over the edges that point into s), and then forms for every node the
  normalised rectified row of  agg·Wlᵀ + h·W0ᵀ + x·W1ᵀ + bl + b0 + b1  (h the layer's input rows, x the network's
  input rows), scaled by γ and shifted by β. Layer 1 runs on the input with the second edge array, layer 0 on layer
  1's output with the first edge array, and the result is  h·Woutᵀ + bout.

  One program does the matrix work in two launches over 25 blocks of 2000 rows with the weights transposed and the
  three biases added up beforehand; the other does it in whole-array operations. On extended reals the changes of
  float format are the identity and sums may be regrouped, so both compute the specification's value
  (Proof/Spec.lean): the first program by Proof/KResult.lean — the blocks of each launch assembled
  (Proof/KFinal0.lean, Proof/KFinal1.lean) over the bodies read at an index (Proof/KBody0.lean, Proof/KBody1.lean) and
  the host operations read at the staged arrays (Proof/KHost0.lean, Proof/KHost1.lean) —, the second by
  Proof/RefValue.lean. The two programs differ in one more place: the first wraps a negative destination node index
  round by the node count before the aggregation, the second does not, and drops such an edge. The precondition says
  the destination indices are not negative, and then the wrap is the identity (Proof/EdgeDomain.lean,
  Proof/AggBridge.lean). The other laws used are commutativity and associativity of addition, which hold for
  infinities too, so the finiteness of the float inputs is not used.
-/
import proofs.«105233_j20830591386265_2_alg».proof.Defs
import proofs.«105233_j20830591386265_2_alg».proof.Proof.Gen.Kernel
import proofs.«105233_j20830591386265_2_alg».proof.Proof.Gen.Kernel.Skeleton
import proofs.«105233_j20830591386265_2_alg».proof.Proof.Gen.Kernel.Launch
import proofs.«105233_j20830591386265_2_alg».proof.Proof.Gen.Kernel.Points
import proofs.«105233_j20830591386265_2_alg».proof.Proof.Gen.Kernel.Frame
import proofs.«105233_j20830591386265_2_alg».proof.Proof.Gen.KernelIdeal
import proofs.«105233_j20830591386265_2_alg».proof.Proof.Gen.KernelIdeal.Skeleton
import proofs.«105233_j20830591386265_2_alg».proof.Proof.Gen.KernelIdeal.Launch
import proofs.«105233_j20830591386265_2_alg».proof.Proof.Gen.KernelIdeal.Points
import proofs.«105233_j20830591386265_2_alg».proof.Proof.Gen.KernelIdeal.Frame
import proofs.«105233_j20830591386265_2_alg».proof.Proof.Gen.ReferenceIdeal
import proofs.«105233_j20830591386265_2_alg».proof.Proof.Gen.Pre_finite_inputs
import proofs.«105233_j20830591386265_2_alg».proof.Proof.Gen.ReferenceIdeal.Run
import proofs.«105233_j20830591386265_2_alg».proof.Proof.Gen.ReferenceIdeal.Read
import proofs.«105233_j20830591386265_2_alg».proof.Proof.KResult
import proofs.«105233_j20830591386265_2_alg».proof.Proof.RefValue
import proofs.«105233_j20830591386265_2_alg».proof.Proof.AggBridge
import proofs.«105233_j20830591386265_2_alg».proof.Proof.EdgeDomain
import Idealize.ShloMosaic.Adequacy
import Idealize.ShloMosaic.Init

set_option maxRecDepth 16384

noncomputable section

namespace Cert.Proof

open Idealize.ShloMosaic Idealize.SL.Sem Idealize.ShloMosaic.TcCoe
open Cert.KernelIdeal.KValue (aX aE1 aE2 aWl aBl aW0 aB0 aW1 aB1 aG aBe aWo aBo)

/-- The common value on core c: the specification's network applied to the core's argument arrays, with the
    aggregation as the whole-array program writes it. -/
def valueOf (m : (ℓ : Loc Cert.KernelIdeal.nD Cert.KernelIdeal.τ Cert.KernelIdeal.sig) → Buf (Elt Ideal) ℓ)
    (c : Dev Cert.KernelIdeal.nD) : FVec Ideal ⟨2, ![50000, 128]⟩ .f32 :=
  Cert.GnnSpec.proj
    (Cert.GnnSpec.layer
      (Cert.ReferenceIdeal.RefValue.agg
        (Cert.GnnSpec.layer (Cert.ReferenceIdeal.RefValue.agg (aX m c) (aE2 m c)) (aX m c) (aX m c) (aWl m c) (aW0 m c) (aW1 m c)
          (aBl m c) (aB0 m c) (aB1 m c) (aG m c) (aBe m c) 1)
        (aE1 m c))
      (Cert.GnnSpec.layer (Cert.ReferenceIdeal.RefValue.agg (aX m c) (aE2 m c)) (aX m c) (aX m c) (aWl m c) (aW0 m c) (aW1 m c)
        (aBl m c) (aB0 m c) (aB1 m c) (aG m c) (aBe m c) 1)
      (aX m c) (aWl m c) (aW0 m c) (aW1 m c) (aBl m c) (aB0 m c) (aB1 m c) (aG m c) (aBe m c) 0)
    (aWo m c) (aBo m c)

/-- Under the precondition the blockwise program's result buffer ends at the common value. -/
theorem kernel_value (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Gen.W4 m ρ c (Proc.devRef .tc Cert.KernelIdeal.main_v78) = valueOf m c := by
  obtain ⟨h1, h2⟩ := Cert.EdgeDomain.rows_nonneg _ _ _ _ _ _ _ _ _ _ _ _ _ (hpre c)
  refine (Cert.KernelIdeal.KValue.result_value m ρ c).trans ?_
  rw [Cert.KernelIdeal.KValue.hidden_eq, Cert.AggBridge.agg_eq _ _ _ _ h2, Cert.AggBridge.aggNarrow_eq _ _ _ _ h1]
  rfl

theorem frame_k : Cert.frame_Kernel := fun m ρ _ => Cert.Kernel.Gen.frame m ρ

theorem frame_ki : Cert.frame_KernelIdeal := fun m ρ _ => Cert.KernelIdeal.Gen.frame m ρ

/-- The whole-array program's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The blockwise program read on extended reals is its own text: no operation was rewritten, so there is nothing to preserve. -/
theorem preserves : Cert.preserves_Kernel_KernelIdeal := trivial

/-- From memories that agree on the arguments both programs end with the common value. -/
theorem algebraic : Cert.algebraic_KernelIdeal_ReferenceIdeal := by
  intro m ρ m' ρ' hpre hagree
  refine ⟨valueOf m, ?_, ?_⟩
  · exact (θ_run (Cert.KernelIdeal.defs (F := Ideal)) _ _).mono
      (fun r h c => ⟨(h c).1.trans (kernel_value m ρ hpre c), (h c).2⟩)
      (Cert.KernelIdeal.KValue.run_result (F := Ideal) m ρ)
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v148_eq, Cert.ReferenceIdeal.RefValue.result_eq]
  obtain ⟨a0, a1, a2, a3, a4, a5, a6, a7, a8, a9, a10, a11, a12⟩ := hagree c
  rw [a0, a1, a2, a3, a4, a5, a6, a7, a8, a9, a10, a11, a12]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
